-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v88)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v88) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000 : Shape := ⟨1, ![100000]⟩
abbrev S100000x4 : Shape := ⟨2, ![100000, 4]⟩
abbrev S2x1600000 : Shape := ⟨2, ![2, 1600000]⟩
abbrev S1000x64 : Shape := ⟨2, ![1000, 64]⟩
abbrev S4x64 : Shape := ⟨2, ![4, 64]⟩
abbrev S64 : Shape := ⟨1, ![64]⟩
abbrev S64x64 : Shape := ⟨2, ![64, 64]⟩
abbrev S128x128 : Shape := ⟨2, ![128, 128]⟩
abbrev S128 : Shape := ⟨1, ![128]⟩
abbrev S_ : Shape := ⟨0, ![]⟩

class Facts : Prop where
  bcast_S_S100000x4 : S_.BroadcastsInDim S100000x4 (![] : Fin 0 → Fin S100000x4.rank)
  reducesTo_S100000x4_S_d0_1 : S100000x4.ReducesTo [0, 1] S_
  h_S_ : 0 < S_.numel
  bcast_S_S1000x64 : S_.BroadcastsInDim S1000x64 (![] : Fin 0 → Fin S1000x64.rank)
  reducesTo_S1000x64_S_d0_1 : S1000x64.ReducesTo [0, 1] S_
  bcast_S_S4x64 : S_.BroadcastsInDim S4x64 (![] : Fin 0 → Fin S4x64.rank)
  reducesTo_S4x64_S_d0_1 : S4x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part3 {F : FTy → Type} [FloatOps F] (main_arg13 : FVec F S128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  main_v58

def fn_part2 {F : FTy → Type} [FloatOps F] (main_arg9 : FVec F S128 .f32) (main_arg10 : FVec F S128x128 .f32) (main_arg11 : FVec F S128 .f32) (main_arg12 : FVec F S128x128 .f32) (main_arg13 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg10
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg12
  let main_cst_18 : FVec F S_ .f32 := constant S_ .f32 0x7F800000#32
  let main_v50 : FVec F S128x128 .f32 := broadcastInDim S128x128 ![] bcast_S_S128x128 main_cst_18
  fn_part3 (F := F) main_arg13 main_v48 main_v49 main_v50

def fn_part1 {F : FTy → Type} [FloatOps F] (main_arg6 : FVec F S64x64 .f32) (main_arg7 : FVec F S64 .f32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_arg12 main_arg13 main_v33

def fn {F : FTy → Type} [FloatOps F] (main_arg0 : IVec S100000 32) (main_arg1 : FVec F S100000x4 .f32) (main_arg2 : IVec S2x1600000 32) (main_arg3 : FVec F S1000x64 .f32) (main_arg4 : FVec F S4x64 .f32) (main_arg5 : FVec F S64 .f32) (main_arg6 : FVec F S64x64 .f32) (main_arg7 : FVec F S64 .f32) (main_arg8 : FVec F S128x128 .f32) (main_arg9 : FVec F S128 .f32) (main_arg10 : FVec F S128x128 .f32) (main_arg11 : FVec F S128 .f32) (main_arg12 : FVec F S128x128 .f32) (main_arg13 : FVec F S128 .f32) : IVec S_ 1 :=
  let main_v0 : FVec F S100000x4 .f32 := Host.absf main_arg1
  let main_cst : FVec F S_ .f32 := constant S_ .f32 0x7F800000#32
  let main_v1 : FVec F S100000x4 .f32 := broadcastInDim S100000x4 ![] bcast_S_S100000x4 main_cst
  let main_v2 : IVec S100000x4 1 := cmpf .olt main_v0 main_v1
  let main_c : IVec S_ 1 := constantI S_ 1 1#1
  let main_v3 : IVec S_ 1 := (fun x v => Host.reduce IntOp.andi x v reducesTo_S100000x4_S_d0_1 h_S_) main_v2 main_c
  let main_v4 : FVec F S1000x64 .f32 := Host.absf main_arg3
  let main_cst_0 : FVec F S_ .f32 := constant S_ .f32 0x7F800000#32
  let main_v5 : FVec F S1000x64 .f32 := broadcastInDim S1000x64 ![] bcast_S_S1000x64 main_cst_0
  let main_v6 : IVec S1000x64 1 := cmpf .olt main_v4 main_v5
  let main_c_1 : IVec S_ 1 := constantI S_ 1 1#1
  let main_v7 : IVec S_ 1 := (fun x v => Host.reduce IntOp.andi x v reducesTo_S1000x64_S_d0_1 h_S_) main_v6 main_c_1
  let main_v8 : IVec S_ 1 := andi main_v3 main_v7
  let main_v9 : FVec F S4x64 .f32 := Host.absf main_arg4
  let main_cst_2 : FVec F S_ .f32 := constant S_ .f32 0x7F800000#32
  let main_v10 : FVec F S4x64 .f32 := broadcastInDim S4x64 ![] bcast_S_S4x64 main_cst_2
  let main_v11 : IVec S4x64 1 := cmpf .olt main_v9 main_v10
  let main_c_3 : IVec S_ 1 := constantI S_ 1 1#1
  let main_v12 : IVec S_ 1 := (fun x v => Host.reduce IntOp.andi x v reducesTo_S4x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_arg10 main_arg11 main_arg12 main_arg13 main_v13 main_v16
-- ==== Kernel.lean ====
abbrev S100000 : Shape := ⟨1, ![100000]⟩
abbrev S100000x4 : Shape := ⟨2, ![100000, 4]⟩
abbrev S2x1600000 : Shape := ⟨2, ![2, 1600000]⟩
abbrev S1000x64 : Shape := ⟨2, ![1000, 64]⟩
abbrev S4x64 : Shape := ⟨2, ![4, 64]⟩
abbrev S64 : Shape := ⟨1, ![64]⟩
abbrev S64x64 : Shape := ⟨2, ![64, 64]⟩
abbrev S128x128 : Shape := ⟨2, ![128, 128]⟩
abbrev S128 : Shape := ⟨1, ![128]⟩
abbrev S_ : Shape := ⟨0, ![]⟩
abbrev S100000x1 : Shape := ⟨2, ![100000, 1]⟩
abbrev S100000x64 : Shape := ⟨2, ![100000, 64]⟩
abbrev S1x64 : Shape := ⟨2, ![1, 64]⟩
abbrev S100000x128 : Shape := ⟨2, ![100000, 128]⟩
abbrev S10000x64 : Shape := ⟨2, ![10000, 64]⟩
abbrev S10000x4 : Shape := ⟨2, ![10000, 4]⟩
abbrev S10000x128 : Shape := ⟨2, ![10000, 128]⟩
abbrev S1x1600000 : Shape := ⟨2, ![1, 1600000]⟩
abbrev S1600000 : Shape := ⟨1, ![1600000]⟩
abbrev S1700000 : Shape := ⟨1, ![1700000]⟩
abbrev S1700000x1 : Shape := ⟨2, ![1700000, 1]⟩
abbrev S1x128 : Shape := ⟨2, ![1, 128]⟩
abbrev S1700000x128 : Shape := ⟨2, ![1700000, 128]⟩

abbrev nBuf : Space → Nat
  | .hbm => 125
  | .vmem => 28
  | .smem => 0
  | _ => 0

abbrev bufTy : (tb : Table) → Fin (tcTables nBuf tb) → BufTy
  | .hbm, ⟨0, _⟩ => ⟨S100000, .i32⟩
  | .hbm, ⟨1, _⟩ => ⟨S100000x4, .f32⟩
  | .hbm, ⟨2, _⟩ => ⟨S2x1600000, .i32⟩
  | .hbm, ⟨3, _⟩ => ⟨S1000x64, .f32⟩
  | .hbm, ⟨4, _⟩ => ⟨S4x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S_, .i32⟩
  | .hbm, ⟨15, _⟩ => ⟨S100000, .i32⟩
  | .hbm, ⟨16, _⟩ => ⟨S100000, .i1⟩
  | .hbm, ⟨17, _⟩ => ⟨S_, .i32⟩
  | .hbm, ⟨18, _⟩ => ⟨S100000, .i32⟩
  | .hbm, ⟨19, _⟩ => ⟨S100000, .i32⟩
  | .hbm, ⟨20, _⟩ => ⟨S100000, .i32⟩
  | .hbm, ⟨21, _⟩ => ⟨S100000x1, .i32⟩
  | .hbm, ⟨22, _⟩ => ⟨S100000x64, .f32⟩
  | .hbm, ⟨23, _⟩ => ⟨S1x64, .f32⟩
  | .hbm, ⟨24, _⟩ => ⟨S1x64, .f32⟩
  | .hbm, ⟨25, _⟩ => ⟨S100000x128, .f32⟩
  | .hbm, ⟨26, _⟩ => ⟨S100000, .i32⟩
  | .hbm, ⟨27, _⟩ => ⟨S1x1600000, .i32⟩
  | .hbm, ⟨28, _⟩ => ⟨S1600000, .i32⟩
  | .hbm, ⟨29, _⟩ => ⟨S1700000, .i32⟩
  | .hbm, ⟨30, _⟩ => ⟨S1x1600000, .i32⟩
  | .hbm, ⟨31, _⟩ => ⟨S1600000, .i32⟩
  | .hbm, ⟨32, _⟩ => ⟨S1700000, .i32⟩
  | .hbm, ⟨33, _⟩ => ⟨S_, .f32⟩
  | .hbm, ⟨34, _⟩ => ⟨S1700000, .f32⟩
  | .hbm, ⟨35, _⟩ => ⟨S_, .f32⟩
  | .hbm, ⟨36, _⟩ => ⟨S100000, .f32⟩
  | .hbm, ⟨37, _⟩ => ⟨S1700000x1, .i32⟩
  | .hbm, ⟨38, _⟩ => ⟨S100000, .f32⟩
  | .hbm, ⟨39, _⟩ => ⟨S_, .f32⟩
  | .hbm, ⟨40, _⟩ => ⟨S100000, .f32⟩
  | .hbm, ⟨41, _⟩ => ⟨S100000, .i1⟩
  | .hbm, ⟨42, _⟩ => ⟨S100000, .f32⟩
  | .hbm, ⟨43, _⟩ => ⟨S_, .f32⟩
  | .hbm, ⟨44, _⟩ => ⟨S_, .f32⟩
  | .hbm, ⟨45, _⟩ => ⟨S100000, .f32⟩
  | .hbm, ⟨46, _⟩ => ⟨S100000, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000, .f32⟩
  | .hbm, ⟨56, _⟩ => ⟨S_, .i32⟩
  | .hbm, ⟨57, _⟩ => ⟨S1700000, .i32⟩
  | .hbm, ⟨58, _⟩ => ⟨S1700000, .i1⟩
  | .hbm, ⟨59, _⟩ => ⟨S_, .i32⟩
  | .hbm, ⟨60, _⟩ => ⟨S1700000, .i32⟩
  | .hbm, ⟨61, _⟩ => ⟨S1700000, .i32⟩
  | .hbm, ⟨62, _⟩ => ⟨S1700000, .i32⟩
  | .hbm, ⟨63, _⟩ => ⟨S1700000x1, .i32⟩
  | .hbm, ⟨64, _⟩ => ⟨S1700000, .f32⟩
  | .hbm, ⟨65, _⟩ => ⟨S1700000, .f32⟩
  | .hbm, ⟨66, _⟩ => ⟨S1700000x1, .f32⟩
  | .hbm, ⟨67, _⟩ => ⟨S_, .f32⟩
  | .hbm, ⟨68, _⟩ => ⟨S1x128, .f32⟩
  | .hbm, ⟨69, _⟩ => ⟨S100000x128, .bf16⟩
  | .hbm, ⟨70, _⟩ => ⟨S_, .i32⟩
  | .hbm, ⟨71, _⟩ => ⟨S1700000, .i32⟩
  | .hbm, ⟨72, _⟩ => ⟨S1700000, .i1⟩
  | .hbm, ⟨73, _⟩ => ⟨S_, .i32⟩
  | .hbm, ⟨74, _⟩ => ⟨S1700000, .i32⟩
  | .hbm, ⟨75, _⟩ => ⟨S1700000, .i32⟩
  | .hbm, ⟨76, _⟩ => ⟨S1700000, .i32⟩
  | .hbm, ⟨77, _⟩ => ⟨S1700000x1, .i32⟩
  | .hbm, ⟨78, _⟩ => ⟨S1700000x128, .bf16⟩
  | .hbm, ⟨79, _⟩ => ⟨S1700000x128, .f32⟩
  | .hbm, ⟨80, _⟩ => ⟨S1700000x128, .f32⟩
  | .hbm, ⟨81, _⟩ => ⟨S1700000x128, .f32⟩
  | .hbm, ⟨82, _⟩ => ⟨S_, .f32⟩
  | .hbm, ⟨83, _⟩ => ⟨S100000x128, .f32⟩
  | .hbm, ⟨84, _⟩ => ⟨S1700000x1, .i32⟩
  | .hbm, ⟨85, _⟩ => ⟨S100000x128, .f32⟩
  | .hbm, ⟨86, _⟩ => ⟨S1x128, .f32⟩
  | .hbm, ⟨87, _⟩ => ⟨S100000x128, .bf16⟩
  | .hbm, ⟨88, _⟩ => ⟨S_, .i32⟩
  | .hbm, ⟨89, _⟩ => ⟨S1700000, .i32⟩
  | .hbm, ⟨90, _⟩ => ⟨S1700000, .i1⟩
  | .hbm, ⟨91, _⟩ => ⟨S_, .i32⟩
  | .hbm, ⟨92, _⟩ => ⟨S1700000, .i32⟩
  | .hbm, ⟨93, _⟩ => ⟨S1700000, .i32⟩
  | .hbm, ⟨94, _⟩ => ⟨S1700000, .i32⟩
  | .hbm, ⟨95, _⟩ => ⟨S1700000x1, .i32⟩
  | .hbm, ⟨96, _⟩ => ⟨S1700000x128, .bf16⟩
  | .hbm, ⟨97, _⟩ => ⟨S1700000x128, .f32⟩
  | .hbm, ⟨98, _⟩ => ⟨S1700000x128, .f32⟩
  | .hbm, ⟨99, _⟩ => ⟨S1700000x128, .f32⟩
  | .hbm, ⟨100, _⟩ => ⟨S_, .f32⟩
  | .hbm, ⟨101, _⟩ => ⟨S100000x128, .f32⟩
  | .hbm, ⟨102, _⟩ => ⟨S1700000x1, .i32⟩
  | .hbm, ⟨103, _⟩ => ⟨S100000x128, .f32⟩
  | .hbm, ⟨104, _⟩ => ⟨S1x128, .f32⟩
  | .hbm, ⟨105, _⟩ => ⟨S100000x128, .bf16⟩
  | .hbm, ⟨106, _⟩ => ⟨S_, .i32⟩
  | .hbm, ⟨107, _⟩ => ⟨S1700000, .i32⟩
  | .hbm, ⟨108, _⟩ => ⟨S1700000, .i1⟩
  | .hbm, ⟨109, _⟩ => ⟨S_, .i32⟩
  | .hbm, ⟨110, _⟩ => ⟨S1700000, .i32⟩
  | .hbm, ⟨111, _⟩ => ⟨S1700000, .i32⟩
  | .hbm, ⟨112, _⟩ => ⟨S1700000, .i32⟩
  | .hbm, ⟨113, _⟩ => ⟨S1700000x1, .i32⟩
  | .hbm, ⟨114, _⟩ => ⟨S1700000x128, .bf16⟩
  | .hbm, ⟨115, _⟩ => ⟨S1700000x128, .f32⟩
  | .hbm, ⟨116, _⟩ => ⟨S1700000x128, .f32⟩
  | .hbm, ⟨117, _⟩ => ⟨S1700000x128, .f32⟩
  | .hbm, ⟨118, _⟩ => ⟨S_, .f32⟩
  | .hbm, ⟨119, _⟩ => ⟨S100000x128, .f32⟩
  | .hbm, ⟨120, _⟩ => ⟨S1700000x1, .i32⟩
  | .hbm, ⟨121, _⟩ => ⟨S100000x128, .f32⟩
  | .hbm, ⟨122, _⟩ => ⟨S1x128, .f32⟩
  | .hbm, ⟨123, _⟩ => ⟨S100000x128, .f32⟩
  | .hbm, ⟨124, _⟩ => ⟨S100000x128, .f32⟩
  | .local _ .vmem, ⟨0, _⟩ => ⟨S10000x64, .f32⟩
  | .local _ .vmem, ⟨1, _⟩ => ⟨S10000x64, .f32⟩
  | .local _ .vmem, ⟨2, _⟩ => ⟨S10000x4, .f32⟩
  | .local _ .vmem, ⟨3, _⟩ => ⟨S10000x4, .f32⟩
  | .local _ .vmem, ⟨4, _⟩ => ⟨S4x64, .f32⟩
  | .local _ .vmem, ⟨5, _⟩ => ⟨S1x64, .f32⟩
  | .local _ .vmem, ⟨6, _⟩ => ⟨S64x64, .f32⟩
  | .local _ .vmem, ⟨7, _⟩ => ⟨S1x64, .f32⟩
  | .local _ .vmem, ⟨8, _⟩ => ⟨S10000x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S1x128, .f32⟩
  | .local _ .vmem, ⟨13, _⟩ => ⟨S128x128, .f32⟩
  | .local _ .vmem, ⟨14, _⟩ => ⟨S10000x128, .bf16⟩
  | .local _ .vmem, ⟨15, _⟩ => ⟨S10000x128, .bf16⟩
  | .local _ .vmem, ⟨16, _⟩ => ⟨S10000x128, .f32⟩
  | .local _ .vmem, ⟨17, _⟩ => ⟨S10000x128, .f32⟩
  | .local _ .vmem, ⟨18, _⟩ => ⟨S1x128, .f32⟩
  | .local _ .vmem, ⟨19, _⟩ => ⟨S128x128, .f32⟩
  | .local _ .vmem, ⟨20, _⟩ => ⟨S10000x128, .bf16⟩
  | .local _ .vmem, ⟨21, _⟩ => ⟨S10000x128, .bf16⟩
  | .local _ .vmem, ⟨22, _⟩ => ⟨S10000x128, .f32⟩
  | .local _ .vmem, ⟨23, _⟩ => ⟨S10000x128, .f32⟩
  | .local _ .vmem, ⟨24, _⟩ => ⟨S1x128, .f32⟩
  | .local _ .vmem, ⟨25, _⟩ => ⟨S128x128, .f32⟩
  | .local _ .vmem, ⟨26, _⟩ => ⟨S10000x128, .bf16⟩
  | .local _ .vmem, ⟨27, _⟩ => ⟨S10000x128, .bf16⟩
  | _, _ => ⟨S100000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst : Ref sig .tc := ⟨.hbm, 33, rfl⟩
abbrev main_v17 : Ref sig .tc := ⟨.hbm, 34, rfl⟩
abbrev main_cst_1 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_cst_2 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst_3 : Ref sig .tc := ⟨.hbm, 43, rfl⟩
abbrev main_call0_v0 : Ref sig .tc := ⟨.hbm, 44, rfl⟩
abbrev main_call0_v1 : Ref sig .tc := ⟨.hbm, 45, rfl⟩
abbrev main_v24 : Ref sig .tc := ⟨.hbm, 46, rfl⟩
abbrev main_c_4 : Ref sig .tc := ⟨.hbm, 47, rfl⟩
abbrev main_v25 : Ref sig .tc := ⟨.hbm, 48, rfl⟩
abbrev main_v26 : Ref sig .tc := ⟨.hbm, 49, rfl⟩
abbrev main_c_5 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_c_6 : Ref sig .tc := ⟨.hbm, 56, rfl⟩
abbrev main_v32 : Ref sig .tc := ⟨.hbm, 57, rfl⟩
abbrev main_v33 : Ref sig .tc := ⟨.hbm, 58, rfl⟩
abbrev main_c_7 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_8 : Ref sig .tc := ⟨.hbm, 67, rfl⟩
abbrev main_v41 : Ref sig .tc := ⟨.hbm, 68, rfl⟩
abbrev main_v42 : Ref sig .tc := ⟨.hbm, 69, rfl⟩
abbrev main_c_9 : Ref sig .tc := ⟨.hbm, 70, rfl⟩
abbrev main_v43 : Ref sig .tc := ⟨.hbm, 71, rfl⟩
abbrev main_v44 : Ref sig .tc := ⟨.hbm, 72, rfl⟩
abbrev main_c_10 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_cst_11 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_c_12 : Ref sig .tc := ⟨.hbm, 88, rfl⟩
abbrev main_v58 : Ref sig .tc := ⟨.hbm, 89, rfl⟩
abbrev main_v59 : Ref sig .tc := ⟨.hbm, 90, rfl⟩
abbrev main_c_13 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_cst_14 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_c_15 : Ref sig .tc := ⟨.hbm, 106, rfl⟩
abbrev main_v73 : Ref sig .tc := ⟨.hbm, 107, rfl⟩
abbrev main_v74 : Ref sig .tc := ⟨.hbm, 108, rfl⟩
abbrev main_c_16 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_cst_17 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg3_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem3_1 : DmaSem sig := 21
abbrev cc3_sem0_0 : DmaSem sig := 22
abbrev cc3_sem0_1 : DmaSem sig := 23
abbrev cc3_sem1_0 : DmaSem sig := 24
abbrev cc3_sem2_0 : DmaSem sig := 25
abbrev cc3_sem3_0 : DmaSem sig := 26
abbrev cc3_sem3_1 : DmaSem sig := 27

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S10000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x128 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S10000x128 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  bcast_S_S100000 : S_.BroadcastsInDim S100000 (![] : Fin 0 → Fin S100000.rank)
  bcast_S100000_S100000x1_0 : S100000.BroadcastsInDim S100000x1 (![0] : Fin 1 → Fin S100000x1.rank)
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S10000x4_S10000x4_0_0 : ∀ a, (![0, 0] : Fin 2 → Nat) a + S10000x4.size a ≤ S10000x4.size a
  h_S10000x4 : 0 < S10000x4.numel
  bitsLt_bf16_f32 : FTy.bits .bf16 < FTy.bits .f32
  inb_S4x64_S4x64_0_0 : ∀ a, (![0, 0] : Fin 2 → Nat) a + S4x64.size a ≤ S4x64.size a
  h_S4x64 : 0 < S4x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x64_S64x64_0_0 : ∀ a, (![0, 0] : Fin 2 → Nat) a + S64x64.size a ≤ S64x64.size a
  h_S64x64 : 0 < S64x64.numel
  concatenates_S10000x64_S10000x64_S10000x128_d1 : Shape.Concatenates [S10000x64, S10000x64] S10000x128 1
  inb_S10000x128_S10000x128_0_0 : ∀ a, (![0, 0] : Fin 2 → Nat) a + S10000x128.size a ≤ S10000x128.size a
  h_S10000x128 : 0 < S10000x128.numel
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S1700000_S1700000x1_0 : S1700000.BroadcastsInDim S1700000x1 (![0] : Fin 1 → Fin S1700000x1.rank)
  bcast_S_S1x128 : S_.BroadcastsInDim S1x128 (![] : Fin 0 → Fin S1x128.rank)
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S128x128_S128x128_0_0 : ∀ a, (![0, 0] : Fin 2 → Nat) a + S128x128.size a ≤ S128x128.size a
  h_S128x128 : 0 < S128x128.numel
  packedbf16_S10000x128_S10000x128_0_0 : (Rect.unit (s := S10000x128) ![0, 0] S10000x128.size inb_S10000x128_S10000x128_0_0).PackedRows (EltTy.packing .bf16)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  bcast_S1x128_S100000x128_0_1 : S1x128.BroadcastsInDim S100000x128 (![0, 1] : Fin 2 → Fin S100000x128.rank)
  gather_S1000x64_S100000x1_S100000x64_1_0_n_n_0_1_164_wf : GatherDims.WF S1000x64 S100000x1 S100000x64 [1] [0] [] [0] [] 1 ![1, 64]
  dot_S10000x4_S4x64_S10000x64_1_0_0_1_n_n_wf : DotDims.WF S10000x4 S4x64 S10000x64 [1] [0] [0] [1] [] []
  dot_S10000x64_S64x64_S10000x64_1_0_0_1_n_n_wf : DotDims.WF S10000x64 S64x64 S10000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x128_S10000x128_1_0_0_1_n_n_wf : DotDims.WF S10000x128 S128x128 S10000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x4.size a ≤ S100000x4.size a
  hwx0_1 : ∀ i : grid0.Coords, EltTy.bits .f32 = 32 ∨ (Rect.block (s := S100000x4) S10000x4.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x64.size a ≤ S4x64.size a
  hwx0_2 : ∀ i : grid0.Coords, EltTy.bits .f32 = 32 ∨ (Rect.block (s := S4x64) S4x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S10000x128.size a ≤ S100000x128.size a
  hwx0_6 : ∀ i : grid0.Coords, EltTy.bits .f32 = 32 ∨ (Rect.block (s := S100000x128) S10000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x128.size a ≤ S100000x128.size a
  hwx1_3 : ∀ i : grid1.Coords, EltTy.bits .bf16 = 32 ∨ (Rect.block (s := S100000x128) S10000x128.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x128.size a ≤ S100000x128.size a
  hwx2_3 : ∀ i : grid2.Coords, EltTy.bits .bf16 = 32 ∨ (Rect.block (s := S100000x128) S10000x128.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S100000x128.size a
  hwx3_0 : ∀ i : grid3.Coords, EltTy.bits .f32 = 32 ∨ (Rect.block (s := S100000x128) S10000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S10000x128.size a ≤ S100000x128.size a
  hwx3_3 : ∀ i : grid3.Coords, EltTy.bits .bf16 = 32 ∨ (Rect.block (s := S100000x128) S10000x128.size (cc3_transform_3 i) (hinb3_3 i)).WholeWords (EltTy.packing .bf16)

variable [Facts₀]

def gather_S1000x64_S100000x1_S100000x64_1_0_n_n_0_1_164 : GatherDims S1000x64 S100000x1 S100000x64 where
  offsetDims := [1]
  collapsedSliceDims := [0]
  operandBatchingDims := []
  startIndicesBatchingDims := []
  startIndexMap := [0]
  indexVectorDim := 1
  sliceSizes := ![1, 64]
  wf := gather_S1000x64_S100000x1_S100000x64_1_0_n_n_0_1_164_wf
def dot_S10000x4_S4x64_S10000x64_1_0_0_1_n_n : DotDims S10000x4 S4x64 S10000x64 where
  lhsContracting := [1]
  rhsContracting := [0]
  lhsNonContracting := [0]
  rhsNonContracting := [1]
  lhsBatch := []
  rhsBatch := []
  wf := dot_S10000x4_S4x64_S10000x64_1_0_0_1_n_n_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

abbrev win0_0 : Pipeline.Window sig grid0 :=
  Pipeline.Window.ofSpec (Memref.whole main_v6) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S10000x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S4x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9) S10000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v9) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg8) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v42) S10000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v55) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v56) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg10) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v57) S10000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v70) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v71) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg12) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v72) S10000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000 : Shape := ⟨1, ![100000]⟩
abbrev S100000x4 : Shape := ⟨2, ![100000, 4]⟩
abbrev S2x1600000 : Shape := ⟨2, ![2, 1600000]⟩
abbrev S1000x64 : Shape := ⟨2, ![1000, 64]⟩
abbrev S4x64 : Shape := ⟨2, ![4, 64]⟩
abbrev S64 : Shape := ⟨1, ![64]⟩
abbrev S64x64 : Shape := ⟨2, ![64, 64]⟩
abbrev S128x128 : Shape := ⟨2, ![128, 128]⟩
abbrev S128 : Shape := ⟨1, ![128]⟩
abbrev S_ : Shape := ⟨0, ![]⟩
abbrev S100000x1 : Shape := ⟨2, ![100000, 1]⟩
abbrev S100000x64 : Shape := ⟨2, ![100000, 64]⟩
abbrev S1x64 : Shape := ⟨2, ![1, 64]⟩
abbrev S100000x128 : Shape := ⟨2, ![100000, 128]⟩
abbrev S1x1600000 : Shape := ⟨2, ![1, 1600000]⟩
abbrev S1600000 : Shape := ⟨1, ![1600000]⟩
abbrev S1700000 : Shape := ⟨1, ![1700000]⟩
abbrev S1700000x1 : Shape := ⟨2, ![1700000, 1]⟩
abbrev S1700000x128 : Shape := ⟨2, ![1700000, 128]⟩
abbrev S1x128 : Shape := ⟨2, ![1, 128]⟩

abbrev nBuf : Space → Nat
  | .hbm => 141
  | .vmem => 0
  | .smem => 0
  | _ => 0

abbrev hbmTy0_0 (i : Nat) : BufTy := match i % 128 with
  | 0 => ⟨S100000, .i32⟩
  | 1 => ⟨S100000x4, .f32⟩
  | 2 => ⟨S2x1600000, .i32⟩
  | 3 => ⟨S1000x64, .f32⟩
  | 4 => ⟨S4x64, .f32⟩
  | 5 => ⟨S64, .f32⟩
  | 6 => ⟨S64x64, .f32⟩
  | 7 => ⟨S64, .f32⟩
  | 8 => ⟨S128x128, .f32⟩
  | 9 => ⟨S128, .f32⟩
  | 10 => ⟨S128x128, .f32⟩
  | 11 => ⟨S128, .f32⟩
  | 12 => ⟨S128x128, .f32⟩
  | 13 => ⟨S128, .f32⟩
  | 14 => ⟨S_, .i32⟩
  | 15 => ⟨S100000, .i32⟩
  | 16 => ⟨S100000, .i1⟩
  | 17 => ⟨S_, .i32⟩
  | 18 => ⟨S100000, .i32⟩
  | 19 => ⟨S100000, .i32⟩
  | 20 => ⟨S100000, .i32⟩
  | 21 => ⟨S100000x1, .i32⟩
  | 22 => ⟨S100000x64, .f32⟩
  | 23 => ⟨S100000x64, .f32⟩
  | 24 => ⟨S1x64, .f32⟩
  | 25 => ⟨S100000x64, .f32⟩
  | 26 => ⟨S100000x64, .f32⟩
  | 27 => ⟨S_, .f32⟩
  | 28 => ⟨S100000x64, .f32⟩
  | 29 => ⟨S100000x64, .f32⟩
  | 30 => ⟨S100000x64, .f32⟩
  | 31 => ⟨S1x64, .f32⟩
  | 32 => ⟨S100000x64, .f32⟩
  | 33 => ⟨S100000x64, .f32⟩
  | 34 => ⟨S100000x128, .f32⟩
  | 35 => ⟨S100000, .i32⟩
  | 36 => ⟨S1x1600000, .i32⟩
  | 37 => ⟨S1600000, .i32⟩
  | 38 => ⟨S1700000, .i32⟩
  | 39 => ⟨S1x1600000, .i32⟩
  | 40 => ⟨S1600000, .i32⟩
  | 41 => ⟨S1700000, .i32⟩
  | 42 => ⟨S_, .f32⟩
  | 43 => ⟨S1700000, .f32⟩
  | 44 => ⟨S_, .f32⟩
  | 45 => ⟨S100000, .f32⟩
  | 46 => ⟨S1700000x1, .i32⟩
  | 47 => ⟨S100000, .f32⟩
  | 48 => ⟨S_, .f32⟩
  | 49 => ⟨S100000, .f32⟩
  | 50 => ⟨S100000, .i1⟩
  | 51 => ⟨S100000, .f32⟩
  | 52 => ⟨S_, .f32⟩
  | 53 => ⟨S_, .f32⟩
  | 54 => ⟨S100000, .f32⟩
  | 55 => ⟨S100000, .f32⟩
  | 56 => ⟨S_, .i32⟩
  | 57 => ⟨S1700000, .i32⟩
  | 58 => ⟨S1700000, .i1⟩
  | 59 => ⟨S_, .i32⟩
  | 60 => ⟨S1700000, .i32⟩
  | 61 => ⟨S1700000, .i32⟩
  | 62 => ⟨S1700000, .i32⟩
  | 63 => ⟨S1700000x1, .i32⟩
  | 64 => ⟨S1700000, .f32⟩
  | 65 => ⟨S_, .i32⟩
  | 66 => ⟨S1700000, .i32⟩
  | 67 => ⟨S1700000, .i1⟩
  | 68 => ⟨S_, .i32⟩
  | 69 => ⟨S1700000, .i32⟩
  | 70 => ⟨S1700000, .i32⟩
  | 71 => ⟨S1700000, .i32⟩
  | 72 => ⟨S1700000x1, .i32⟩
  | 73 => ⟨S1700000, .f32⟩
  | 74 => ⟨S1700000, .f32⟩
  | 75 => ⟨S100000x128, .f32⟩
  | 76 => ⟨S_, .i32⟩
  | 77 => ⟨S1700000, .i32⟩
  | 78 => ⟨S1700000, .i1⟩
  | 79 => ⟨S_, .i32⟩
  | 80 => ⟨S1700000, .i32⟩
  | 81 => ⟨S1700000, .i32⟩
  | 82 => ⟨S1700000, .i32⟩
  | 83 => ⟨S1700000x1, .i32⟩
  | 84 => ⟨S1700000x128, .f32⟩
  | 85 => ⟨S1700000x1, .f32⟩
  | 86 => ⟨S1700000x128, .f32⟩
  | 87 => ⟨S1700000x128, .f32⟩
  | 88 => ⟨S_, .f32⟩
  | 89 => ⟨S100000x128, .f32⟩
  | 90 => ⟨S1700000x1, .i32⟩
  | 91 => ⟨S100000x128, .f32⟩
  | 92 => ⟨S1x128, .f32⟩
  | 93 => ⟨S100000x128, .f32⟩
  | 94 => ⟨S100000x128, .f32⟩
  | 95 => ⟨S_, .f32⟩
  | 96 => ⟨S100000x128, .f32⟩
  | 97 => ⟨S100000x128, .f32⟩
  | 98 => ⟨S100000x128, .f32⟩
  | 99 => ⟨S_, .i32⟩
  | 100 => ⟨S1700000, .i32⟩
  | 101 => ⟨S1700000, .i1⟩
  | 102 => ⟨S_, .i32⟩
  | 103 => ⟨S1700000, .i32⟩
  | 104 => ⟨S1700000, .i32⟩
  | 105 => ⟨S1700000, .i32⟩
  | 106 => ⟨S1700000x1, .i32⟩
  | 107 => ⟨S1700000x128, .f32⟩
  | 108 => ⟨S1700000x1, .f32⟩
  | 109 => ⟨S1700000x128, .f32⟩
  | 110 => ⟨S1700000x128, .f32⟩
  | 111 => ⟨S_, .f32⟩
  | 112 => ⟨S100000x128, .f32⟩
  | 113 => ⟨S1700000x1, .i32⟩
  | 114 => ⟨S100000x128, .f32⟩
  | 115 => ⟨S1x128, .f32⟩
  | 116 => ⟨S100000x128, .f32⟩
  | 117 => ⟨S100000x128, .f32⟩
  | 118 => ⟨S_, .f32⟩
  | 119 => ⟨S100000x128, .f32⟩
  | 120 => ⟨S100000x128, .f32⟩
  | 121 => ⟨S100000x128, .f32⟩
  | 122 => ⟨S_, .i32⟩
  | 123 => ⟨S1700000, .i32⟩
  | 124 => ⟨S1700000, .i1⟩
  | 125 => ⟨S_, .i32⟩
  | 126 => ⟨S1700000, .i32⟩
  | 127 => ⟨S1700000, .i32⟩
  | _ => ⟨S100000, .i32⟩

abbrev hbmTy0_1 (i : Nat) : BufTy := match i % 128 with
  | 0 => ⟨S1700000, .i32⟩
  | 1 => ⟨S1700000x1, .i32⟩
  | 2 => ⟨S1700000x128, .f32⟩
  | 3 => ⟨S1700000x1, .f32⟩
  | 4 => ⟨S1700000x128, .f32⟩
  | 5 => ⟨S1700000x128, .f32⟩
  | 6 => ⟨S_, .f32⟩
  | 7 => ⟨S100000x128, .f32⟩
  | 8 => ⟨S1700000x1, .i32⟩
  | 9 => ⟨S100000x128, .f32⟩
  | 10 => ⟨S1x128, .f32⟩
  | 11 => ⟨S100000x128, .f32⟩
  | 12 => ⟨S100000x128, .f32⟩
  | _ => ⟨S100000, .i32⟩

abbrev hbmTy (i : Nat) : BufTy := match i / 128 with
  | 0 => hbmTy0_0 i
  | 1 => hbmTy0_1 i
  | _ => ⟨S100000, .i32⟩

abbrev bufTy : (tb : Table) → Fin (tcTables nBuf tb) → BufTy
  | .hbm, ⟨i, _⟩ => hbmTy i
  | _, _ => ⟨S100000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_call0_cst : Ref sig .tc := ⟨.hbm, 27, rfl⟩
abbrev main_call0_v0 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst : Ref sig .tc := ⟨.hbm, 42, rfl⟩
abbrev main_v24 : Ref sig .tc := ⟨.hbm, 43, rfl⟩
abbrev main_cst_1 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_2 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_3 : Ref sig .tc := ⟨.hbm, 52, rfl⟩
abbrev main_call1_v0 : Ref sig .tc := ⟨.hbm, 53, rfl⟩
abbrev main_call1_v1 : Ref sig .tc := ⟨.hbm, 54, rfl⟩
abbrev main_v31 : Ref sig .tc := ⟨.hbm, 55, rfl⟩
abbrev main_c_4 : Ref sig .tc := ⟨.hbm, 56, rfl⟩
abbrev main_v32 : Ref sig .tc := ⟨.hbm, 57, rfl⟩
abbrev main_v33 : Ref sig .tc := ⟨.hbm, 58, rfl⟩
abbrev main_c_5 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_c_6 : Ref sig .tc := ⟨.hbm, 65, rfl⟩
abbrev main_v39 : Ref sig .tc := ⟨.hbm, 66, rfl⟩
abbrev main_v40 : Ref sig .tc := ⟨.hbm, 67, rfl⟩
abbrev main_c_7 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_c_8 : Ref sig .tc := ⟨.hbm, 76, rfl⟩
abbrev main_v48 : Ref sig .tc := ⟨.hbm, 77, rfl⟩
abbrev main_v49 : Ref sig .tc := ⟨.hbm, 78, rfl⟩
abbrev main_c_9 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_cst_10 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_call2_cst : Ref sig .tc := ⟨.hbm, 95, rfl⟩
abbrev main_call2_v0 : Ref sig .tc := ⟨.hbm, 96, rfl⟩
abbrev main_v64 : Ref sig .tc := ⟨.hbm, 97, rfl⟩
abbrev main_v65 : Ref sig .tc := ⟨.hbm, 98, rfl⟩
abbrev main_c_11 : Ref sig .tc := ⟨.hbm, 99, rfl⟩
abbrev main_v66 : Ref sig .tc := ⟨.hbm, 100, rfl⟩
abbrev main_v67 : Ref sig .tc := ⟨.hbm, 101, rfl⟩
abbrev main_c_12 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_cst_13 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_call3_cst : Ref sig .tc := ⟨.hbm, 118, rfl⟩
abbrev main_call3_v0 : Ref sig .tc := ⟨.hbm, 119, rfl⟩
abbrev main_v82 : Ref sig .tc := ⟨.hbm, 120, rfl⟩
abbrev main_v83 : Ref sig .tc := ⟨.hbm, 121, rfl⟩
abbrev main_c_14 : Ref sig .tc := ⟨.hbm, 122, rfl⟩
abbrev main_v84 : Ref sig .tc := ⟨.hbm, 123, rfl⟩
abbrev main_v85 : Ref sig .tc := ⟨.hbm, 124, rfl⟩
abbrev main_c_15 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_cst_16 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩

abbrev nD : Nat := 1
abbrev τ : Topo := Topo.v7x

variable {F : FTy → Type} [FloatOps F]

class Facts₀ : Prop where
  bcast_S_S100000 : S_.BroadcastsInDim S100000 (![] : Fin 0 → Fin S100000.rank)
  bcast_S100000_S100000x1_0 : S100000.BroadcastsInDim S100000x1 (![0] : Fin 1 → Fin S100000x1.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  concatenates_S100000x64_S100000x64_S100000x128_d1 : Shape.Concatenates [S100000x64, S100000x64] S100000x128 1
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S1000x64_S100000x1_S100000x64_1_0_n_n_0_1_164_wf : GatherDims.WF S1000x64 S100000x1 S100000x64 [1] [0] [] [0] [] 1 ![1, 64]
  dot_S100000x4_S4x64_S100000x64_1_0_0_1_n_n_wf : DotDims.WF S100000x4 S4x64 S100000x64 [1] [0] [0] [1] [] []
  dot_S100000x64_S64x64_S100000x64_1_0_0_1_n_n_wf : DotDims.WF S100000x64 S64x64 S100000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1

variable [Facts₀]

def gather_S1000x64_S100000x1_S100000x64_1_0_n_n_0_1_164 : GatherDims S1000x64 S100000x1 S100000x64 where
  offsetDims := [1]
  collapsedSliceDims := [0]
  operandBatchingDims := []
  startIndicesBatchingDims := []
  startIndexMap := [0]
  indexVectorDim := 1
  sliceSizes := ![1, 64]
  wf := gather_S1000x64_S100000x1_S100000x64_1_0_n_n_0_1_164_wf
def dot_S100000x4_S4x64_S100000x64_1_0_0_1_n_n : DotDims S100000x4 S4x64 S100000x64 where
  lhsContracting := [1]
  rhsContracting := [0]
  lhsNonContracting := [0]
  rhsNonContracting := [1]
  lhsBatch := []
  rhsBatch := []
  wf := dot_S100000x4_S4x64_S100000x64_1_0_0_1_n_n_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

class Facts : Prop extends Facts₀ where

variable [Facts]
-- ==== Proof.KernelRun.lean ====
import proofs.«124355_j64132451664402_2_alg».proof.Proof.Gen.KernelIdeal.Frame

/-!
  The idealized kernel's run with its result named. The program is eleven segments — host lines and four tiled
  regions — and the device's buffer contents at the boundaries are a fold `W0, W1, …, W11` through them: a host line
  applies its operations, a region replaces its output array by what its grid points wrote and keeps every other
  buffer. Every weakly fair execution terminates with EVERY buffer at the last boundary's contents `W11`; in
  particular the result buffer, and the fourteen argument arrays, which nothing writes.
-/

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with every buffer the thread holds at
    the last boundary's contents: the launch over the eleven segments, the last thread state read against the final
    memory. -/
theorem run_last : θ_run defs (onTc (τ := τ) (main (F := F))) ⟨m, fun _ => 0, ρ⟩ (fun r => ∀ c : Dev nD,
      ∀ b ∈ Pipeline.ucRefs τ sig, r.2.mem (((c : Thread nD τ)).1, b) = W11 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c => h c)

/-- The run with the result named: the result buffer ends at the last boundary's contents, and each argument array as
    launched (no host operation and no region writes one). -/
theorem run_result : θ_run defs (onTc (τ := τ) (main (F := F))) ⟨m, fun _ => 0, ρ⟩ (fun r => ∀ c : Dev nD,
      r.2.mem ((c.tc : Thread nD τ).loc main_v88) = W11 m ρ c (Proc.devRef .tc main_v88)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c =>
      ⟨h c _ (mem_uc main_v88 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c),
       (h c _ (mem_uc main_arg9 (by decide))).trans (W11_main_arg9 m ρ c),
       (h c _ (mem_uc main_arg10 (by decide))).trans (W11_main_arg10 m ρ c),
       (h c _ (mem_uc main_arg11 (by decide))).trans (W11_main_arg11 m ρ c),
       (h c _ (mem_uc main_arg12 (by decide))).trans (W11_main_arg12 m ρ c),
       (h c _ (mem_uc main_arg13 (by decide))).trans (W11_main_arg13 m ρ c)⟩)
    (run_last m ρ)

end Cert.KernelIdeal.RunValue

end
-- ==== Proof.Boundaries.lean ====
import proofs.«124355_j64132451664402_2_alg».proof.Proof.Gen.KernelIdeal.Frame

/-!
  Which buffers keep their contents from one boundary of the idealized kernel's program to a later one.

  The device's contents at the boundaries are the fold `W0, W1, …, W11`: `W1` after the first host line; `W2` after the
  feature region; `W3, W4, W5` after the three host lines that compute the edge ends and the edge weights; `W6`
  after the first linear region; `W7` after a host line; `W8` after the second linear region; `W9`, `W10` likewise for
  the third; `W11` after the last host line. A host line changes only the buffers its operations write, a region only
  its output array. So

  * a buffer that nothing has written up to a boundary holds its launch contents there (`at1` … `at10`);
  * a buffer nothing writes after the weights are computed (the edge ends, the weight column) holds at the later
    boundaries what it held at `W5` (`Settled`).
-/

set_option maxRecDepth 16384

noncomputable section

namespace Cert.KernelIdeal.Boundaries

open Cert.KernelIdeal Cert.KernelIdeal.Gen
open Idealize.ShloMosaic Idealize.ShloMosaic.TcCoe Idealize.SL.Sem

variable {F : FTy → Type} [FloatOps F]

/-- No operation of the line writes the buffer. -/
abbrev NotIn (ops : List (HloOp τ sig (Elt F))) (b : Ref sig .tc) : Prop :=
  ∀ op ∈ ops, (Proc.devRef .tc b : DevRef τ sig) ∉ op.writes

/-- Decides `NotIn` for one of the program's host lines and a literal buffer: each operation writes one named buffer,
    and two names are compared by evaluation. -/
macro "not_written" : tactic => `(tactic| (
  refine List.forall_iff_forall_mem.mp ?_
  simp only [hostOps0, hostOps1, hostOps1_1, hostOps1_2, hostOps2, hostOps3, hostOps4, List.Forall,
    StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

/-- A buffer that nothing writes from the first linear region on. -/
structure Settled (F : FTy → Type) [FloatOps F] (b : Ref sig .tc) : Prop where
  h2 : NotIn (hostOps2 (F := F)) b
  h3 : NotIn (hostOps3 (F := F)) b
  r1 : ∀ w, Pipeline.arrRef spec1 w ≠ b
  r2 : ∀ w, Pipeline.arrRef spec2 w ≠ b
  r3 : ∀ w, Pipeline.arrRef spec3 w ≠ b

variable (m : (ℓ : Loc nD τ sig) → Buf (Elt F) ℓ) (ρ : Dev nD → PrngReg) (c : Dev nD) {b : Ref sig .tc}

section Launch

/-! A buffer holds its launch contents at a boundary when no host line before that boundary writes it and it is no
    array of a region before it (an input array of a LATER region qualifies: nothing has touched it yet). -/

variable (h0 : NotIn (hostOps0 (F := F)) b)
include h0
theorem at1 : W1 m ρ c (Proc.devRef .tc b) = m ((c : Thread nD τ).loc b) :=
  StableHlo.after_of_forall_not_mem _ _ h0
variable (r0 : ∀ w, Pipeline.arrRef spec0 w ≠ b)
include r0
theorem at2 : W2 m ρ c (Proc.devRef .tc b) = m ((c : Thread nD τ).loc b) :=
  (W2_of_ne m ρ c b r0).trans (at1 m ρ c h0)
variable (h1 : NotIn (hostOps1 (F := F)) b) (h1a : NotIn (hostOps1_1 (F := F)) b) (h1b : NotIn (hostOps1_2 (F := F)) b)
include h1 h1a h1b
theorem at5 : W5 m ρ c (Proc.devRef .tc b) = m ((c : Thread nD τ).loc b) :=
  (StableHlo.after_of_forall_not_mem _ _ h1b).trans ((StableHlo.after_of_forall_not_mem _ _ h1a).trans
    ((StableHlo.after_of_forall_not_mem _ _ h1).trans (at2 m ρ c h0 r0)))
variable (r1 : ∀ w, Pipeline.arrRef spec1 w ≠ b)
include r1
theorem at6 : W6 m ρ c (Proc.devRef .tc b) = m ((c : Thread nD τ).loc b) :=
  (W6_of_ne m ρ c b r1).trans (at5 m ρ c h0 r0 h1 h1a h1b)
variable (h2 : NotIn (hostOps2 (F := F)) b)
include h2
theorem at7 : W7 m ρ c (Proc.devRef .tc b) = m ((c : Thread nD τ).loc b) :=
  (StableHlo.after_of_forall_not_mem _ _ h2).trans (at6 m ρ c h0 r0 h1 h1a h1b r1)
variable (r2 : ∀ w, Pipeline.arrRef spec2 w ≠ b)
include r2
theorem at8 : W8 m ρ c (Proc.devRef .tc b) = m ((c : Thread nD τ).loc b) :=
  (W8_of_ne m ρ c b r2).trans (at7 m ρ c h0 r0 h1 h1a h1b r1 h2)
variable (h3 : NotIn (hostOps3 (F := F)) b)
include h3
theorem at9 : W9 m ρ c (Proc.devRef .tc b) = m ((c : Thread nD τ).loc b) :=
  (StableHlo.after_of_forall_not_mem _ _ h3).trans (at8 m ρ c h0 r0 h1 h1a h1b r1 h2 r2)
variable (r3 : ∀ w, Pipeline.arrRef spec3 w ≠ b)
include r3
theorem at10 : W10 m ρ c (Proc.devRef .tc b) = m ((c : Thread nD τ).loc b) :=
  (W10_of_ne m ρ c b r3).trans (at9 m ρ c h0 r0 h1 h1a h1b r1 h2 r2 h3)

end Launch

section Settled
variable (s : Settled F b)
include s

theorem keep6 : W6 m ρ c (Proc.devRef .tc b) = W5 m ρ c (Proc.devRef .tc b) := W6_of_ne m ρ c b s.r1
theorem keep8 : W8 m ρ c (Proc.devRef .tc b) = W5 m ρ c (Proc.devRef .tc b) :=
  (W8_of_ne m ρ c b s.r2).trans ((StableHlo.after_of_forall_not_mem _ _ s.h2).trans (keep6 m ρ c s))
theorem keep10 : W10 m ρ c (Proc.devRef .tc b) = W5 m ρ c (Proc.devRef .tc b) :=
  (W10_of_ne m ρ c b s.r3).trans ((StableHlo.after_of_forall_not_mem _ _ s.h3).trans (keep8 m ρ c s))

end Settled

/-! ## The buffers this is used for -/

section Uses
variable (m : (ℓ : Loc nD τ sig) → Buf (Elt F) ℓ) (ρ : Dev nD → PrngReg) (c : Dev nD)

/-- What the feature region reads of the arguments, at its entry. -/
theorem arg1_at1 : W1 m ρ c (Proc.devRef .tc main_arg1) = m ((c : Thread nD τ).loc main_arg1) := at1 m ρ c (by not_written)
theorem arg4_at1 : W1 m ρ c (Proc.devRef .tc main_arg4) = m ((c : Thread nD τ).loc main_arg4) := at1 m ρ c (by not_written)
theorem arg6_at1 : W1 m ρ c (Proc.devRef .tc main_arg6) = m ((c : Thread nD τ).loc main_arg6) := at1 m ρ c (by not_written)
/-- The edge list, where the host lines after the feature region read it. -/
theorem arg2_at2 : W2 m ρ c (Proc.devRef .tc main_arg2) = m ((c : Thread nD τ).loc main_arg2) :=
  at2 m ρ c (by not_written) (by decide)
/-- The three square weights and the three biases, each where it is read. -/
theorem arg8_at5 : W5 m ρ c (Proc.devRef .tc main_arg8) = m ((c : Thread nD τ).loc main_arg8) :=
  at5 m ρ c (by not_written) (by decide) (by not_written) (by not_written) (by not_written)
theorem arg9_at6 : W6 m ρ c (Proc.devRef .tc main_arg9) = m ((c : Thread nD τ).loc main_arg9) :=
  at6 m ρ c (by not_written) (by decide) (by not_written) (by not_written) (by not_written) (by decide)
theorem arg10_at7 : W7 m ρ c (Proc.devRef .tc main_arg10) = m ((c : Thread nD τ).loc main_arg10) :=
  at7 m ρ c (by not_written) (by decide) (by not_written) (by not_written) (by not_written) (by decide) (by not_written)
theorem arg11_at8 : W8 m ρ c (Proc.devRef .tc main_arg11) = m ((c : Thread nD τ).loc main_arg11) :=
  at8 m ρ c (by not_written) (by decide) (by not_written) (by not_written) (by not_written) (by decide) (by not_written) (by decide)
theorem arg12_at9 : W9 m ρ c (Proc.devRef .tc main_arg12) = m ((c : Thread nD τ).loc main_arg12) :=
  at9 m ρ c (by not_written) (by decide) (by not_written) (by not_written) (by not_written) (by decide) (by not_written) (by decide) (by not_written)
theorem arg13_at10 : W10 m ρ c (Proc.devRef .tc main_arg13) = m ((c : Thread nD τ).loc main_arg13) :=
  at10 m ρ c (by not_written) (by decide) (by not_written) (by not_written) (by not_written) (by decide) (by not_written) (by decide) (by not_written) (by decide)

end Uses

/-- The edges' first ends. -/
theorem ends0 : Settled F main_v13 := ⟨by not_written, by not_written, by decide, by decide, by decide⟩
/-- The edges' second ends. -/
theorem ends1 : Settled F main_v16 := ⟨by not_written, by not_written, by decide, by decide, by decide⟩
/-- The column of edge weights. -/
theorem weights : Settled F main_v40 := ⟨by not_written, by not_written, by decide, by decide, by decide⟩

end Cert.KernelIdeal.Boundaries

end
-- ==== Proof.Stages.lean ====
import proofs.«124355_j64132451664402_2_alg».proof.Proof.Gen.ReferenceIdeal
import Idealize.ShloMosaic.PureOps.Ideal

/-!
  The dense stages of the network as functions of whole arrays over the extended reals, written with the host
  operations of the reference program: what each of the four tiled regions has to leave in its output array.

  * `features emb bbox w1 b1 w2 b2` — the node features: the label embedding `emb` in columns 0–63 and, in columns
    64–127, `relu (bbox · w1 + b1) · w2 + b2`, the biases kept as rows `[1, 64]`;
  * `project x w` — the plain product `x · w`;
  * `layer agg b w` — `relu (agg + b) · w`, the bias a row `[1, 128]`.
-/

noncomputable section

namespace Cert.Stages

open Cert.ReferenceIdeal Cert.ReferenceIdeal.Gen Idealize.ShloMosaic

/-- A bias row `[1, n]` repeated down every one of the 100000 rows, 64 wide. -/
abbrev rows64 (b : FVec Ideal S1x64 .f32) : FVec Ideal S100000x64 .f32 :=
  broadcastInDim S100000x64 ![0, 1] bcast_S1x64_S100000x64_0_1 b

/-- A bias row `[1, n]` repeated down every one of the 100000 rows, 128 wide. -/
abbrev rows128 (b : FVec Ideal S1x128 .f32) : FVec Ideal S100000x128 .f32 :=
  broadcastInDim S100000x128 ![0, 1] bcast_S1x128_S100000x128_0_1 b

/-- The bounding-box branch: `relu (bbox · w1 + b1) · w2 + b2`. -/
def boxBranch (bbox : FVec Ideal S100000x4 .f32) (w1 : FVec Ideal S4x64 .f32) (b1 : FVec Ideal S1x64 .f32)
    (w2 : FVec Ideal S64x64 .f32) (b2 : FVec Ideal S1x64 .f32) : FVec Ideal S100000x64 .f32 :=
  addf (Host.dotGeneral dot_S100000x64_S64x64_S100000x64_1_0_0_1_n_n none
      (maximumf (addf (Host.dotGeneral dot_S100000x4_S4x64_S100000x64_1_0_0_1_n_n none bbox w1) (rows64 b1))
        (broadcastInDim S100000x64 ![] bcast_S_S100000x64 (constant (F := Ideal) S_ .f32 0x00000000#32))) w2)
    (rows64 b2)

/-- The node features: the label embedding beside the bounding-box branch, joined along the columns. -/
def features (emb : FVec Ideal S100000x64 .f32) (bbox : FVec Ideal S100000x4 .f32) (w1 : FVec Ideal S4x64 .f32)
    (b1 : FVec Ideal S1x64 .f32) (w2 : FVec Ideal S64x64 .f32) (b2 : FVec Ideal S1x64 .f32) : FVec Ideal S100000x128 .f32 :=
  concatenate S100000x128 1 [⟨S100000x64, emb⟩, ⟨S100000x64, boxBranch bbox w1 b1 w2 b2⟩]
    concatenates_S100000x64_S100000x64_S100000x128_d1

/-- The plain product of the node rows with a square weight. -/
def project (x : FVec Ideal S100000x128 .f32) (w : FVec Ideal S128x128 .f32) : FVec Ideal S100000x128 .f32 :=
  Host.dotGeneral dot_S100000x128_S128x128_S100000x128_1_0_0_1_n_n none x w

/-- One hidden layer's dense part: the bias added to the aggregated rows, the clamp at zero, the product. -/
def layer (agg : FVec Ideal S100000x128 .f32) (b : FVec Ideal S1x128 .f32) (w : FVec Ideal S128x128 .f32) :
    FVec Ideal S100000x128 .f32 :=
  project (maximumf (addf agg (rows128 b))
    (broadcastInDim S100000x128 ![] bcast_S_S100000x128 (constant (F := Ideal) S_ .f32 0x00000000#32))) w

end Cert.Stages

end
-- ==== Proof.Network.lean ====
import proofs.«124355_j64132451664402_2_alg».proof.Proof.Stages

/-!
  The whole network as ONE function of the fourteen argument arrays over the extended reals, built from named pieces,
  each written with the host operations of the reference program:

  * `embed label table` — row `i` is row `label i` of the table (a negative label counted from the end, as jnp does);
  * `src e`, `dst e` — the two ends of the 1 600 000 edges followed by the 100 000 self loops `i → i`;
  * `startCol s` — a vector of node numbers as the one-column array of start indices a gather takes (negative
    numbers counted from the end);
  * `degree e` — for each node the number of edges (self loop included) that end in it;
  * `invSqrtDeg e` — `deg ^ (-1/2)` where the degree is positive, `0` elsewhere;
  * `norm e` — per edge the product of that weight at its two ends; `normCol e` the same as one column;
  * `aggregate h e` — row `i` is the sum over the edges `k` that end in `i` of `norm k` times row `src k` of `h`
    (`aggregateOf` is the same for edge data given as arrays);
  * `output …` — three rounds of "dense stage, then aggregate" over the node features, the last bias added at the end.

  The dense stages (`features`, `project`, `layer`) are those of the stages module.
-/

noncomputable section

namespace Cert.Network

open Cert.ReferenceIdeal Cert.ReferenceIdeal.Gen Cert.Stages Idealize.ShloMosaic

/-- Integer arrays at the ideal values (an integer is a machine word there too). -/
abbrev IVec (s : Shape) := (⟨s, .i32⟩ : BufTy).Contents (Elt Ideal)

/-- Row `i` of the result is row `label i` of the table; a negative label is counted from the table's end. -/
def embed (label : IVec S100000) (table : FVec Ideal S1000x64 .f32) : FVec Ideal S100000x64 .f32 :=
  Host.gather gather_S1000x64_S100000x1_S100000x64_1_0_n_n_0_1_164 table
    (broadcastInDim S100000x1 ![0] bcast_S100000_S100000x1_0
      (select (cmpi .slt label (broadcastInDim S100000 ![] bcast_S_S100000 (constantI S_ 32 0#32)))
        (addi label (broadcastInDim S100000 ![] bcast_S_S100000 (constantI S_ 32 1000#32))) label))

/-- The edges' first ends, then the nodes themselves (the self loops). -/
def src (e : IVec S2x1600000) : IVec S1700000 :=
  concatenate S1700000 0
    [⟨S1600000, shapeCast _ (extractStridedSlice S1x1600000 ![0, 0] e slices_S2x1600000_S1x1600000_0_0) shapeCasts_S1x1600000_S1600000⟩,
     ⟨S100000, iotaInDim S100000 32 0⟩] concatenates_S1600000_S100000_S1700000_d0

/-- The edges' second ends, then the nodes themselves (the self loops). -/
def dst (e : IVec S2x1600000) : IVec S1700000 :=
  concatenate S1700000 0
    [⟨S1600000, shapeCast _ (extractStridedSlice S1x1600000 ![1, 0] e slices_S2x1600000_S1x1600000_1_0) shapeCasts_S1x1600000_S1600000⟩,
     ⟨S100000, iotaInDim S100000 32 0⟩] concatenates_S1600000_S100000_S1700000_d0

/-- Node numbers as the column of start indices of a gather: a negative number is counted from the end. -/
def startCol (s : IVec S1700000) : IVec S1700000x1 :=
  broadcastInDim S1700000x1 ![0] bcast_S1700000_S1700000x1_0
    (select (cmpi .slt s (broadcastInDim S1700000 ![] bcast_S_S1700000 (constantI S_ 32 0#32)))
      (addi s (broadcastInDim S1700000 ![] bcast_S_S1700000 (constantI S_ 32 100000#32))) s)

/-- Node numbers as the column of positions a scatter adds at. -/
abbrev atCol (s : IVec S1700000) : IVec S1700000x1 :=
  broadcastInDim S1700000x1 ![0] bcast_S1700000_S1700000x1_0 s

/-- The number of edges, self loop included, that end in each node: ones added at the second ends. -/
def degree (e : IVec S2x1600000) : FVec Ideal S100000 .f32 :=
  Host.scatterAdd scatter_S100000_S1700000x1_S1700000_n_0_0_1
    (broadcastInDim S100000 ![] bcast_S_S100000 (constant (F := Ideal) S_ .f32 0x00000000#32))
    (atCol (dst e))
    (broadcastInDim S1700000 ![] bcast_S_S1700000 (constant (F := Ideal) S_ .f32 0x3F800000#32))

/-- `deg ^ (-1/2)` where the degree is positive, zero elsewhere. -/
def invSqrtDeg (e : IVec S2x1600000) : FVec Ideal S100000 .f32 :=
  select (cmpf (F := Ideal) .ogt (degree e) (broadcastInDim S100000 ![] bcast_S_S100000 (constant (F := Ideal) S_ .f32 0x00000000#32)))
    (Host.rsqrt (degree e))
    (broadcastInDim S100000 ![] bcast_S_S100000 (id (constant (F := Ideal) S_ .f32 0x00000000#32)))

/-- Per edge, the product of the two ends' weights. -/
def norm (e : IVec S2x1600000) : FVec Ideal S1700000 .f32 :=
  mulf (Host.gather gather_S100000_S1700000x1_S1700000_n_0_n_n_0_1_1 (invSqrtDeg e) (startCol (src e)))
    (Host.gather gather_S100000_S1700000x1_S1700000_n_0_n_n_0_1_1 (invSqrtDeg e) (startCol (dst e)))

/-- The edge weights as one column. -/
def normCol (e : IVec S2x1600000) : FVec Ideal S1700000x1 .f32 :=
  broadcastInDim S1700000x1 ![0] bcast_S1700000_S1700000x1_0 (norm e)

/-- The aggregation for given edge data — first ends `s`, second ends `d`, weight column `n` —: row `i` is the sum, over
    the edges `k` with `d k = i`, of `n k` times row `s k` of `h`. -/
def aggregateOf (h : FVec Ideal S100000x128 .f32) (s d : IVec S1700000) (n : FVec Ideal S1700000x1 .f32) :
    FVec Ideal S100000x128 .f32 :=
  Host.scatterAdd scatter_S100000x128_S1700000x1_S1700000x128_1_0_0_1
    (broadcastInDim S100000x128 ![] bcast_S_S100000x128 (constant (F := Ideal) S_ .f32 0x00000000#32))
    (atCol d)
    (mulf (Host.gather gather_S100000x128_S1700000x1_S1700000x128_1_0_n_n_0_1_1128 h (startCol s))
      (broadcastInDim S1700000x128 ![0, 1] bcast_S1700000x1_S1700000x128_0_1 n))

/-- Row `i`: the sum, over the edges that end in `i`, of the edge's weight times the row of `h` at the edge's first end. -/
def aggregate (h : FVec Ideal S100000x128 .f32) (e : IVec S2x1600000) : FVec Ideal S100000x128 .f32 :=
  aggregateOf h (src e) (dst e) (normCol e)

/-- A bias `[64]` as a row `[1, 64]`. -/
abbrev row64 (b : FVec Ideal S64 .f32) : FVec Ideal S1x64 .f32 := broadcastInDim S1x64 ![1] bcast_S64_S1x64_1 b

/-- A bias `[128]` as a row `[1, 128]`. -/
abbrev row128 (b : FVec Ideal S128 .f32) : FVec Ideal S1x128 .f32 := broadcastInDim S1x128 ![1] bcast_S128_S1x128_1 b

/-- The node features of the arguments. -/
def nodeFeatures (label : IVec S100000) (bbox : FVec Ideal S100000x4 .f32) (table : FVec Ideal S1000x64 .f32)
    (w1 : FVec Ideal S4x64 .f32) (b1 : FVec Ideal S64 .f32) (w2 : FVec Ideal S64x64 .f32) (b2 : FVec Ideal S64 .f32) :
    FVec Ideal S100000x128 .f32 :=
  features (embed label table) bbox w1 (row64 b1) w2 (row64 b2)

/-- The first round: the features projected, then aggregated along the edges. -/
def round0 (x : FVec Ideal S100000x128 .f32) (e : IVec S2x1600000) (w : FVec Ideal S128x128 .f32) : FVec Ideal S100000x128 .f32 :=
  aggregate (project x w) e

/-- A later round: bias, clamp at zero and product (the previous round's bias is added here), then aggregated. -/
def round (agg : FVec Ideal S100000x128 .f32) (e : IVec S2x1600000) (b : FVec Ideal S128 .f32) (w : FVec Ideal S128x128 .f32) :
    FVec Ideal S100000x128 .f32 :=
  aggregate (layer agg (row128 b) w) e

/-- The network: three rounds over the node features, the last bias added at the end. -/
def output (label : IVec S100000) (bbox : FVec Ideal S100000x4 .f32) (e : IVec S2x1600000) (table : FVec Ideal S1000x64 .f32)
    (w1 : FVec Ideal S4x64 .f32) (b1 : FVec Ideal S64 .f32) (w2 : FVec Ideal S64x64 .f32) (b2 : FVec Ideal S64 .f32)
    (wg0 : FVec Ideal S128x128 .f32) (bg0 : FVec Ideal S128 .f32) (wg1 : FVec Ideal S128x128 .f32) (bg1 : FVec Ideal S128 .f32)
    (wg2 : FVec Ideal S128x128 .f32) (bg2 : FVec Ideal S128 .f32) : FVec Ideal S100000x128 .f32 :=
  addf (round (round (round0 (nodeFeatures label bbox table w1 b1 w2 b2) e wg0) e bg0 wg1) e bg1 wg2) (rows128 (row128 bg2))

end Cert.Network

end
-- ==== Proof.LibTypedRefs.lean ====
/-
  Reading a straight line of host operations back, one stretch at a time.

  * The contents after two lists of operations run one after the other are the second list's fold from the first
    list's (`after_append`): a long line is read a stretch at a time, the few buffers a later stretch reads named
    before it reads them, instead of one term in which every shared intermediate is written out once per use.
  * An operation inside a called function reads and writes its buffers through a typed reference: the value is
    transported along the equation "the buffer's type is the value's type". At a literal reference whose declared type
    is the buffer's own the transport is the identity, in both directions (`ofBuf_self`, `toBuf_self`). Rewrite with
    these (by `rw`: they are stated at `T := r.ty`, which a syntactic matcher does not see through) BEFORE comparing the
    read-back term with a closed form: with a transport left around a selection or a comparison, deciding the
    selection's condition forces the operands — a scatter over every edge, say — at a symbolic index.
-/
import Idealize.ShloMosaic.Lib.StableHlo.Run

noncomputable section

namespace Idealize.ShloMosaic.StableHlo

variable {nD : Nat} {τ : Topo} {sig : RefSig} {Val : EltTy → Type}

/-- The contents after two lists run one after the other: the second list's fold from the first list's. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

/-- Contents read through a literal reference at the buffer's own type are the contents. -/
theorem TRef.ofBuf_self (r : Ref sig .tc) (h : r.ty = r.ty) (hd : r.space ≠ .host) (hu : r.isScoped = false)
    (v : r.ty.Contents Val) : (TRef.of (T := r.ty) r h hd hu).ofBuf v = v := rfl

/-- Contents written through a literal reference at the buffer's own type are the contents. -/
theorem TRef.toBuf_self (r : Ref sig .tc) (h : r.ty = r.ty) (hd : r.space ≠ .host) (hu : r.isScoped = false)
    (v : r.ty.Contents Val) : (TRef.of (T := r.ty) r h hd hu).toBuf v = v := rfl

end Idealize.ShloMosaic.StableHlo

end
-- ==== Proof.LibBiasRow.lean ====
/-
  A vector made a one-row matrix, two ways. The host turns a bias `[n]` into a row `[1, n]` either by a reshape or by a
  `broadcast_in_dim` that sends the vector's axis to the row's second axis; the two arrays are equal — both read, at
  `(0, q)`, the vector at `q` — for any length and any element type. This is what joins a kernel wrapper that reshapes its
  biases with a reference that lets the addition broadcast them.
-/
import Idealize.ShloMosaic.Lib.ValueIdx
import Idealize.ShloMosaic.Lib.ValueLayout
import Idealize.ShloMosaic.Lib.Pipeline.Value

namespace Idealize.ShloMosaic.BiasRow

open Idealize.ShloMosaic Idealize.ShloMosaic.ValueIdx

/-- A vector `[n]` reshaped to a row `[1, n]` is the vector broadcast to that row: both read, at `(0, q)`, the vector at `q`. -/
theorem row_eq {n : ℕ} {α : Type} (v : (⟨1, ![n]⟩ : Shape).Idx → α) (hs : (⟨1, ![n]⟩ : Shape).ShapeCasts ⟨2, ![1, n]⟩)
    (hb : (⟨1, ![n]⟩ : Shape).BroadcastsInDim ⟨2, ![1, n]⟩ ![1]) :
    shapeCast ⟨2, ![1, n]⟩ v hs = broadcastInDim ⟨2, ![1, n]⟩ ![1] hb v := by
  funext i
  obtain ⟨u, q, rfl⟩ : ∃ (u : Fin 1) (q : Fin n), i = ix2 u q := ⟨i 0, i 1, eq_ix2 i⟩
  rw [shapeCast_a_1a_apply]
  exact (broadcastInDim_apply ![1] hb v (ix2 u q) (ix1 q) (fun a => by
    match a with
    | ⟨0, _⟩ =>
      show q.val = if n = 1 then 0 else q.val
      split
      · have := q.isLt; omega
      · rfl)).symm

end Idealize.ShloMosaic.BiasRow
-- ==== Proof.HostLines.lean ====
import proofs.«124355_j64132451664402_2_alg».proof.Proof.Gen.KernelIdeal.Launch
import proofs.«124355_j64132451664402_2_alg».proof.Proof.Network
import proofs.«124355_j64132451664402_2_alg».proof.Proof.LibTypedRefs
import proofs.«124355_j64132451664402_2_alg».proof.Proof.LibBiasRow
import Idealize.ShloMosaic.Lib.StableHlo.Run
import Idealize.ShloMosaic.Lib.ValueIdx
import Idealize.ShloMosaic.Lib.ValueLayout
import Idealize.ShloMosaic.Lib.Pipeline.Value

/-!
  The idealized kernel's host lines, read back one at a time from ARBITRARY buffer contents `W`: what each line leaves in
  the buffers a later region or line reads is a named piece of the network (the network module) of what the line itself
  read. The kernel's lines are the reference's operations on other buffers, so each reading is by computation; two
  spellings differ and are bridged here: a bias `[n]` made a row `[1, n]` by a reshape (the kernel) or by a
  `broadcast_in_dim` (the reference) — the same array —, and the kernel's gathered rows, stored narrow and widened again,
  which at the ideal values are the rows themselves. The edge weights pass through a called function (a selection): its
  typed references are the identity at the literal buffers and are removed before the comparison.
-/

set_option maxRecDepth 16384

noncomputable section

namespace Cert.KernelIdeal.HostLines

open Cert.KernelIdeal Cert.KernelIdeal.Gen
open Idealize.ShloMosaic Idealize.ShloMosaic.TcCoe Idealize.ShloMosaic.ValueIdx Idealize.ShloMosaic.StableHlo Idealize.SL.Sem
open Cert.Network (IVec)
open Idealize.ShloMosaic.BiasRow (row_eq)

variable (W : Valuation τ sig (Elt Ideal))

/-! ## The line before the feature region -/

/-- The label embedding: the table's rows gathered at the labels. -/
theorem embed_line :
    after hostOps0 W (Proc.devRef .tc main_v6)
      = Cert.Network.embed (W (Proc.devRef .tc main_arg0)) (W (Proc.devRef .tc main_arg3)) := by
  after_results
  rfl

/-- The first bias as a row. -/
theorem bias1_line : after hostOps0 W (Proc.devRef .tc main_v7) = Cert.Network.row64 (W (Proc.devRef .tc main_arg5)) := by
  after_results
  exact row_eq _ _ _

/-- The second bias as a row. -/
theorem bias2_line : after hostOps0 W (Proc.devRef .tc main_v8) = Cert.Network.row64 (W (Proc.devRef .tc main_arg7)) := by
  after_results
  exact row_eq _ _ _

/-! ## The three lines between the feature region and the first linear region

They compute, from the edge list alone, the edge ends (self loops appended), the degrees and the edge weights; they also
make the all-zero bias row the first linear region is handed, and leave the features where they are. -/

/-- The three lines applied in turn. -/
abbrev edgeLines (W : Valuation τ sig (Elt Ideal)) : Valuation τ sig (Elt Ideal) :=
  after hostOps1_2 (after hostOps1_1 (after hostOps1 W))

theorem src_line : edgeLines W (Proc.devRef .tc main_v13) = Cert.Network.src (W (Proc.devRef .tc main_arg2)) := by
  after_results
  rfl

theorem dst_line : edgeLines W (Proc.devRef .tc main_v16) = Cert.Network.dst (W (Proc.devRef .tc main_arg2)) := by
  after_results
  rfl

set_option maxHeartbeats 4000000 in
theorem weight_line : edgeLines W (Proc.devRef .tc main_v40) = Cert.Network.normCol (W (Proc.devRef .tc main_arg2)) := by
  after_results_simp
  -- the pieces of the two concatenations (the edges' ends, then the self loops) are read back operation by operation
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  -- the selection "rsqrt where the degree is positive" is a called function: its values pass through typed references,
  -- which are the identity at these literal buffers
  repeat (first | rw [TRef.ofBuf_self] | rw [TRef.toBuf_self])
  rfl

/-- The bias row handed to the first linear region is all zeros. -/
theorem zero_row_line :
    edgeLines W (Proc.devRef .tc main_v41) = broadcastInDim S1x128 ![] bcast_S_S1x128 (constant (F := Ideal) S_ .f32 0x00000000#32) := by
  after_results

/-- The three lines leave the features where the feature region put them. -/
theorem features_kept : edgeLines W (Proc.devRef .tc main_v9) = W (Proc.devRef .tc main_v9) := by
  after_results

/-! ## The lines after the linear regions: the aggregation along the edges, and the next bias as a row

The rows a linear region stored are gathered as stored (narrow) and widened: at the ideal values, the rows themselves. -/

set_option maxHeartbeats 2000000 in
theorem aggregate_line2 :
    after hostOps2 W (Proc.devRef .tc main_v55)
      = Cert.Network.aggregateOf (W (Proc.devRef .tc main_v42)) (W (Proc.devRef .tc main_v13)) (W (Proc.devRef .tc main_v16))
          (W (Proc.devRef .tc main_v40)) := by
  after_results_simp
  rfl

theorem bias_line2 : after hostOps2 W (Proc.devRef .tc main_v56) = Cert.Network.row128 (W (Proc.devRef .tc main_arg9)) := by
  after_results
  exact row_eq _ _ _

set_option maxHeartbeats 2000000 in
theorem aggregate_line3 :
    after hostOps3 W (Proc.devRef .tc main_v70)
      = Cert.Network.aggregateOf (W (Proc.devRef .tc main_v57)) (W (Proc.devRef .tc main_v13)) (W (Proc.devRef .tc main_v16))
          (W (Proc.devRef .tc main_v40)) := by
  after_results_simp
  rfl

theorem bias_line3 : after hostOps3 W (Proc.devRef .tc main_v71) = Cert.Network.row128 (W (Proc.devRef .tc main_arg11)) := by
  after_results
  exact row_eq _ _ _

set_option maxHeartbeats 2000000 in
/-- The last line: the third aggregation, then the last bias added to every row. -/
theorem output_line :
    after hostOps4 W (Proc.devRef .tc main_v88)
      = addf (Cert.Network.aggregateOf (W (Proc.devRef .tc main_v72)) (W (Proc.devRef .tc main_v13)) (W (Proc.devRef .tc main_v16))
              (W (Proc.devRef .tc main_v40)))
          (Cert.Stages.rows128 (Cert.Network.row128 (W (Proc.devRef .tc main_arg13)))) := by
  after_results_simp
  refine congrArg₂ addf rfl (congrArg _ (row_eq _ _ _))

end Cert.KernelIdeal.HostLines

end
-- ==== Proof.LibRowOps.lean ====
/-
  Reads at an index, for rank-2 arrays, of the operations a row-wise kernel and its reference are built from — stated
  for any extents, at the ideal values (floats are extended reals) where a float operation is involved:

  * a matrix product contracting the left operand's columns with the right operand's rows (a `tpu.matmul` into the
    zero accumulator, the host's `dot_general`), read at `(i, j)`, is the sum over `k` of `l (i, k) * r (k, j)`;
  * three equally wide arrays joined along the columns, read at `(a, c)`, are piece `c / 64` at `(a, c % 64)`;
  * a column `[a, 1]` broadcast along the rows' direction to `[a, b]` reads, at `(p, c)`, the column at `p`;
  * a scalar broadcast to any shape reads the scalar everywhere.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Idealize.ShloMosaic.RowOps

open Idealize.ShloMosaic Idealize.ShloMosaic.ValueIdx

/-! ## The plain matrix product -/

/-- The dimension numbers of `[A, K] × [K, B] → [A, B]`: the left operand's axis 1 contracted with the right operand's
    axis 0, no batch axis. -/
abbrev plainDims {A K B : Nat}
    (wf : DotDims.WF (⟨2, ![A, K]⟩ : Shape) ⟨2, ![K, B]⟩ ⟨2, ![A, B]⟩ [1] [0] [0] [1] [] []) :
    DotDims (⟨2, ![A, K]⟩ : Shape) ⟨2, ![K, B]⟩ ⟨2, ![A, B]⟩ :=
  ⟨[1], [0], [0], [1], [], [], wf⟩

/-- Off the contracted axis the left operand's index is the result's row, whatever the contraction position. -/
theorem plain_lhs0 {A K B : Nat} (wf : DotDims.WF (⟨2, ![A, K]⟩ : Shape) ⟨2, ![K, B]⟩ ⟨2, ![A, B]⟩ [1] [0] [0] [1] [] [])
    (j : (⟨2, ![A, B]⟩ : Shape).Idx) (q : (plainDims wf).contr.Idx) :
    ((plainDims wf).lhsIdx j q 0).val = (j 0).val := by
  unfold DotDims.lhsIdx
  rw [dif_neg (show ¬(0 : Fin 2) ∈ ([] : List (Fin 2)) from List.not_mem_nil),
    dif_pos (show (0 : Fin 2) ∈ ([0] : List (Fin 2)) from List.mem_singleton.mpr rfl)]
  rfl

/-- Off the contracted axis the right operand's index is the result's column, whatever the contraction position. -/
theorem plain_rhs1 {A K B : Nat} (wf : DotDims.WF (⟨2, ![A, K]⟩ : Shape) ⟨2, ![K, B]⟩ ⟨2, ![A, B]⟩ [1] [0] [0] [1] [] [])
    (j : (⟨2, ![A, B]⟩ : Shape).Idx) (q : (plainDims wf).contr.Idx) :
    ((plainDims wf).rhsIdx j q 1).val = (j 1).val := by
  unfold DotDims.rhsIdx
  rw [dif_neg (show ¬(1 : Fin 2) ∈ ([] : List (Fin 2)) from List.not_mem_nil),
    dif_pos (show (1 : Fin 2) ∈ ([1] : List (Fin 2)) from List.mem_singleton.mpr rfl)]
  rfl

/-- The contraction sum of a plain matrix product, re-indexed by the contracted coordinate: at `j = (i, c)` the left
    operand is read along row `i`, the right one down column `c`. -/
theorem plainDot_sum {A K B : Nat} (d : DotDims (⟨2, ![A, K]⟩ : Shape) ⟨2, ![K, B]⟩ ⟨2, ![A, B]⟩)
    (hd : ∃ wf, d = plainDims wf)
    (l : (⟨2, ![A, K]⟩ : Shape).Idx → EReal) (r : (⟨2, ![K, B]⟩ : Shape).Idx → EReal) (j : (⟨2, ![A, B]⟩ : Shape).Idx) :
    ∑ k : d.contr.Idx, l (d.lhsIdx j k) * r (d.rhsIdx j k) = ∑ k : Fin K, l (ix2 (j 0) k) * r (ix2 k (j 1)) := by
  obtain ⟨wf, rfl⟩ := hd
  rw [← Equiv.sum_comp (contrEquiv1 (plainDims wf) K rfl rfl).symm]
  refine Finset.sum_congr rfl fun k _ => ?_
  have hk := contrEquiv1_symm_val (plainDims wf) K rfl rfl k
  have el : (plainDims wf).lhsIdx j ((contrEquiv1 (plainDims wf) K rfl rfl).symm k) = ix2 (j 0) k :=
    funext fun a => Fin.ext (by
      match a with
      | ⟨0, _⟩ => exact plain_lhs0 wf j _
      | ⟨1, _⟩ => exact ((plainDims wf).lhsIdx_val_of_single (cl := 1) rfl j _).trans hk)
  have er : (plainDims wf).rhsIdx j ((contrEquiv1 (plainDims wf) K rfl rfl).symm k) = ix2 k (j 1) :=
    funext fun a => Fin.ext (by
      match a with
      | ⟨0, _⟩ => exact ((plainDims wf).rhsIdx_val_of_single (cr := 0) rfl j _).trans hk
      | ⟨1, _⟩ => exact plain_rhs1 wf j _)
  rw [el, er]
  rfl

/-- A `tpu.matmul` of a plain product into the zero accumulator, read at `(i, c)`: the sum over `k` of
    `l (i, k) * r (k, c)`. -/
theorem matmul_zero_plain_apply {A K B : Nat} {φ₁ φ₂ : FTy} (d : DotDims (⟨2, ![A, K]⟩ : Shape) ⟨2, ![K, B]⟩ ⟨2, ![A, B]⟩)
    (hd : ∃ wf, d = plainDims wf) (prec : Option ContractPrecision)
    (l : FVec Ideal (⟨2, ![A, K]⟩ : Shape) φ₁) (r : FVec Ideal (⟨2, ![K, B]⟩ : Shape) φ₂) (i : Fin A) (c : Fin B) :
    FloatOps.matmul d prec l r (constant (⟨2, ![A, B]⟩ : Shape) .f32 0x00000000#32) (ix2 i c)
      = ∑ k : Fin K, l (ix2 i k) * r (ix2 k c) := by
  rw [Ideal.matmul_constant_zero_apply]
  exact plainDot_sum d hd l r (ix2 i c)

/-- The host's `dot_general` of a plain product, read at `(i, c)`: the same sum. -/
theorem dotGeneral_plain_apply {A K B : Nat} {φ₁ φ₂ : FTy} (d : DotDims (⟨2, ![A, K]⟩ : Shape) ⟨2, ![K, B]⟩ ⟨2, ![A, B]⟩)
    (hd : ∃ wf, d = plainDims wf) (prec : Option ContractPrecision) (sched : HostSchedule)
    (l : FVec Ideal (⟨2, ![A, K]⟩ : Shape) φ₁) (r : FVec Ideal (⟨2, ![K, B]⟩ : Shape) φ₂) (i : Fin A) (c : Fin B) :
    FloatOps.dotGeneral d prec sched l r (ix2 i c) = ∑ k : Fin K, l (ix2 i k) * r (ix2 k c) := by
  rw [Ideal.dotGeneral_apply]
  exact plainDot_sum d hd l r (ix2 i c)

/-! ## Three pieces joined along the columns -/

variable {α : Type}

/-- Three `[A, 64]` arrays joined along axis 1 into `[A, 192]`, read at `(a, c)`: piece `c / 64` at `(a, c % 64)`. -/
theorem concat3_apply {A : Nat} (u0 u1 u2 : (⟨2, ![A, 64]⟩ : Shape).Idx → α)
    (h : Shape.Concatenates [(⟨2, ![A, 64]⟩ : Shape), ⟨2, ![A, 64]⟩, ⟨2, ![A, 64]⟩] ⟨2, ![A, 192]⟩ 1)
    (a : Fin A) (c : Fin 192) :
    concatenate (⟨2, ![A, 192]⟩ : Shape) 1 [⟨⟨2, ![A, 64]⟩, u0⟩, ⟨⟨2, ![A, 64]⟩, u1⟩, ⟨⟨2, ![A, 64]⟩, u2⟩] h (ix2 a c)
      = (![u0, u1, u2] ⟨c.val / 64, by have := c.isLt; omega⟩) (ix2 a ⟨c.val % 64, Nat.mod_lt _ (by decide)⟩) := by
  refine concatenate_ofFn_apply (t := (⟨2, ![A, 192]⟩ : Shape)) (s₁ := (⟨2, ![A, 64]⟩ : Shape)) 1 ![u0, u1, u2] h rfl 64 rfl
    (ix2 a c) ⟨c.val / 64, by have := c.isLt; omega⟩ rfl (ix2 a ⟨c.val % 64, Nat.mod_lt _ (by decide)⟩) rfl ?_
  intro b hb
  match b with
  | ⟨0, _⟩ => rfl
  | ⟨1, _⟩ => exact absurd rfl hb

/-! ## A column broadcast along its rows -/

/-- An `[a, 1]` array broadcast to `[a, b]` reads, at `(p, c)`, the operand's one column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## A scalar broadcast -/

/-- A scalar broadcast to any shape reads, everywhere, the scalar. -/
theorem broadcastInDim_scalar_apply {t : Shape} (h : (⟨0, ![]⟩ : Shape).BroadcastsInDim t (![] : Fin 0 → Fin t.rank))
    (x : (⟨0, ![]⟩ : Shape).Idx → α) (j : t.Idx) :
    broadcastInDim t ![] h x j = x ix0 :=
  broadcastInDim_apply ![] h x j ix0 fun a => a.elim0

end Idealize.ShloMosaic.RowOps

end
-- ==== Proof.LibConcatPair.lean ====
/-
  Two arrays joined by the host, read at an index given by coordinates, for any extents: two matrices with equally
  many rows joined along the columns ([A, B] and [A, C] into [A, N]), and two vectors joined end to end ([B] and [C]
  into [N]). A position inside the first piece's extent reads the first piece there; a position `B + j` past it reads
  the second piece at `j`. Each is the general read of a two-piece concatenation at these shapes.
-/
import Idealize.ShloMosaic.Lib.ValueIdx
import Idealize.ShloMosaic.Lib.Pipeline.Value

namespace Idealize.ShloMosaic.ConcatPair

open Idealize.ShloMosaic Idealize.ShloMosaic.ValueIdx

variable {α : Type}

/-- Joined along the columns, a column of the first piece's range reads the first piece. -/
theorem cols_left {A B C N : ℕ} (u0 : (⟨2, ![A, B]⟩ : Shape).Idx → α) (u1 : (⟨2, ![A, C]⟩ : Shape).Idx → α)
    (h : Shape.Concatenates [(⟨2, ![A, B]⟩ : Shape), ⟨2, ![A, C]⟩] ⟨2, ![A, N]⟩ 1)
    (a : Fin A) (j : Fin B) (c : Fin N) (hc : c.val = j.val) :
    concatenate (⟨2, ![A, N]⟩ : Shape) 1 [⟨⟨2, ![A, B]⟩, u0⟩, ⟨⟨2, ![A, C]⟩, u1⟩] h (ix2 a c) = u0 (ix2 a j) :=
  concatenate_pair_apply_left (t := ⟨2, ![A, N]⟩) (s₁ := ⟨2, ![A, B]⟩) (s₂ := ⟨2, ![A, C]⟩) 1 u0 u1 h (ix2 a c) rfl (ix2 a j)
    (fun b => by match b with | ⟨0, _⟩ => rfl | ⟨1, _⟩ => exact hc.symm)

/-- Joined along the columns, column `B + j` reads the second piece at column `j`. -/
theorem cols_right {A B C N : ℕ} (u0 : (⟨2, ![A, B]⟩ : Shape).Idx → α) (u1 : (⟨2, ![A, C]⟩ : Shape).Idx → α)
    (h : Shape.Concatenates [(⟨2, ![A, B]⟩ : Shape), ⟨2, ![A, C]⟩] ⟨2, ![A, N]⟩ 1)
    (a : Fin A) (j : Fin C) (c : Fin N) (hc : c.val = B + j.val) :
    concatenate (⟨2, ![A, N]⟩ : Shape) 1 [⟨⟨2, ![A, B]⟩, u0⟩, ⟨⟨2, ![A, C]⟩, u1⟩] h (ix2 a c) = u1 (ix2 a j) :=
  concatenate_pair_apply_right (t := ⟨2, ![A, N]⟩) (s₁ := ⟨2, ![A, B]⟩) (s₂ := ⟨2, ![A, C]⟩) 1 u0 u1 h (ix2 a c) rfl rfl (ix2 a j)
    (fun b hb => by match b with | ⟨0, _⟩ => rfl | ⟨1, _⟩ => exact absurd rfl hb)
    (show j.val + B = c.val by omega)

/-- Joined end to end, a position of the first piece's range reads the first piece. -/
theorem vec_left {B C N : ℕ} (u0 : (⟨1, ![B]⟩ : Shape).Idx → α) (u1 : (⟨1, ![C]⟩ : Shape).Idx → α)
    (h : Shape.Concatenates [(⟨1, ![B]⟩ : Shape), ⟨1, ![C]⟩] ⟨1, ![N]⟩ 0) (j : Fin B) (c : Fin N) (hc : c.val = j.val) :
    concatenate (⟨1, ![N]⟩ : Shape) 0 [⟨⟨1, ![B]⟩, u0⟩, ⟨⟨1, ![C]⟩, u1⟩] h (ix1 c) = u0 (ix1 j) :=
  concatenate_pair_apply_left (t := ⟨1, ![N]⟩) (s₁ := ⟨1, ![B]⟩) (s₂ := ⟨1, ![C]⟩) 0 u0 u1 h (ix1 c) rfl (ix1 j)
    (fun b => by match b with | ⟨0, _⟩ => exact hc.symm)

/-- Joined end to end, position `B + j` reads the second piece at `j`. -/
theorem vec_right {B C N : ℕ} (u0 : (⟨1, ![B]⟩ : Shape).Idx → α) (u1 : (⟨1, ![C]⟩ : Shape).Idx → α)
    (h : Shape.Concatenates [(⟨1, ![B]⟩ : Shape), ⟨1, ![C]⟩] ⟨1, ![N]⟩ 0) (j : Fin C) (c : Fin N) (hc : c.val = B + j.val) :
    concatenate (⟨1, ![N]⟩ : Shape) 0 [⟨⟨1, ![B]⟩, u0⟩, ⟨⟨1, ![C]⟩, u1⟩] h (ix1 c) = u1 (ix1 j) :=
  concatenate_pair_apply_right (t := ⟨1, ![N]⟩) (s₁ := ⟨1, ![B]⟩) (s₂ := ⟨1, ![C]⟩) 0 u0 u1 h (ix1 c) rfl rfl (ix1 j)
    (fun b hb => by match b with | ⟨0, _⟩ => exact absurd rfl hb)
    (show j.val + B = c.val by omega)

end Idealize.ShloMosaic.ConcatPair
-- ==== Proof.FeatureRegion.lean ====
/-
  The first tiled region of the network (the node features), for any contents of the device's buffers when the region is
  entered: the array its write-backs leave is the stage `Cert.Stages.features` of the six arrays it reads.

  The mathematics. The output has 100000 rows and 128 columns. Row `r` of it depends on row `r` of the label embedding
  and row `r` of the bounding boxes only (and on the whole of the two weights and the two bias rows): columns 0–63 are
  the embedding's row; column `64 + q` is
      ∑ k, max (∑ l, bbox (r, l) * w1 (l, k) + b1 (0, k)) 0 * w2 (k, q) + b2 (0, q).
  The region walks a grid of 10 points. At point `t` a row-blocked array's block is its rows `10000·t … 10000·t + 9999`
  (all columns), a weight's or a bias row's block is the whole array, and the body computes, from the blocks, the same
  two column halves for the 10000 rows of the block. Because a row of a matrix product `x · w` is the product of that
  row of `x` with `w`, block `t` of `relu (bbox · w1 + b1) · w2 + b2` is the same expression of block `t` of `bbox`:
  read at an index, both sides are literally the same sums in the same order (over the extended reals every float
  operation is exact and the roundings to the narrow format are the identity), so no finiteness is needed. The ten
  blocks tile the output (row `r` lies in the block of point `r / 10000`), every point writes its block back, hence the
  array ends holding the stage.
-/
import proofs.«124355_j64132451664402_2_alg».proof.Proof.Gen.KernelIdeal.Frame
import proofs.«124355_j64132451664402_2_alg».proof.Proof.Stages
import proofs.«124355_j64132451664402_2_alg».proof.Proof.LibRowOps
import proofs.«124355_j64132451664402_2_alg».proof.Proof.LibConcatPair
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators
open Idealize.ShloMosaic Idealize.ShloMosaic.TcCoe Idealize.ShloMosaic.ValueIdx Idealize.SL.Sem
open Idealize.ShloMosaic.Pipeline (Dat Cfg Window)
open Cert.KernelIdeal Cert.KernelIdeal.Gen

namespace Cert.KernelIdeal.FeatureRegion

/-! ## One entry of the bounding-box branch -/

/-- Entry `(p, q)` of `relu (bbox · w1 + b1) · w2 + b2` for a box array of any number `A` of rows: it reads row `p` of
    `bbox` and nothing else of it. The hidden width is 64, a box has 4 numbers, the biases are rows `[1, 64]`. -/
def boxEntry {A : ℕ} (bbox : (⟨2, ![A, 4]⟩ : Shape).Idx → EReal) (w1 : (⟨2, ![4, 64]⟩ : Shape).Idx → EReal)
    (b1 : (⟨2, ![1, 64]⟩ : Shape).Idx → EReal) (w2 : (⟨2, ![64, 64]⟩ : Shape).Idx → EReal)
    (b2 : (⟨2, ![1, 64]⟩ : Shape).Idx → EReal) (p : Fin A) (q : Fin 64) : EReal :=
  ∑ k : Fin 64, max (∑ l : Fin 4, bbox (ix2 p l) * w1 (ix2 l k) + b1 (ix2 (0 : Fin 1) k)) 0 * w2 (ix2 k q)
    + b2 (ix2 (0 : Fin 1) q)

/-- The entry depends on the box array through ONE row: two box arrays (of any heights) that agree on row `p` of the
    one and row `r` of the other give the same entry there, the other operands being equal. This is "block `t` of the
    product is the product of block `t`", entry by entry. -/
theorem boxEntry_congr {A B : ℕ} (x : (⟨2, ![A, 4]⟩ : Shape).Idx → EReal) (y : (⟨2, ![B, 4]⟩ : Shape).Idx → EReal)
    (w1 w1' : (⟨2, ![4, 64]⟩ : Shape).Idx → EReal) (b1 b1' : (⟨2, ![1, 64]⟩ : Shape).Idx → EReal)
    (w2 w2' : (⟨2, ![64, 64]⟩ : Shape).Idx → EReal) (b2 b2' : (⟨2, ![1, 64]⟩ : Shape).Idx → EReal)
    (p : Fin A) (r : Fin B) (q : Fin 64) (hx : ∀ l : Fin 4, x (ix2 p l) = y (ix2 r l))
    (hw1 : w1 = w1') (hb1 : b1 = b1') (hw2 : w2 = w2') (hb2 : b2 = b2') :
    boxEntry x w1 b1 w2 b2 p q = boxEntry y w1' b1' w2' b2' r q := by
  subst hw1 hb1 hw2 hb2
  unfold boxEntry
  simp only [hx]

/-! ## The body at an index: a block of 10000 rows -/

/-- The body's first product (a block of boxes times the first weight, into the zero accumulator) at `(i, c)`: the
    sum over the 4 box numbers. -/
theorem hidden_block_apply (l : FVec Ideal S10000x4 .bf16) (r : FVec Ideal S4x64 .bf16) (i : Fin 10000) (c : Fin 64) :
    matmul dot_S10000x4_S4x64_S10000x64_1_0_0_1_n_n none l r (constant S10000x64 .f32 0x00000000#32) (ix2 i c)
      = ∑ k : Fin 4, l (ix2 i k) * r (ix2 k c) :=
  RowOps.matmul_zero_plain_apply dot_S10000x4_S4x64_S10000x64_1_0_0_1_n_n ⟨_, rfl⟩ none l r i c

/-- The body's second product (the clamped hidden block times the second weight, into the zero accumulator) at
    `(i, c)`: the sum over the 64 hidden units. -/
theorem out_block_apply (l : FVec Ideal S10000x64 .bf16) (r : FVec Ideal S64x64 .bf16) (i : Fin 10000) (c : Fin 64) :
    matmul dot_S10000x64_S64x64_S10000x64_1_0_0_1_n_n none l r (constant S10000x64 .f32 0x00000000#32) (ix2 i c)
      = ∑ k : Fin 64, l (ix2 i k) * r (ix2 k c) :=
  RowOps.matmul_zero_plain_apply dot_S10000x64_S64x64_S10000x64_1_0_0_1_n_n ⟨_, rfl⟩ none l r i c

/-- What the body stores, read in the first 64 columns: the embedding block, unchanged. -/
theorem body_left (x0 : Vec Ideal S10000x64 .f32) (x1 : Vec Ideal S10000x4 .f32) (x2 : Vec Ideal S4x64 .f32)
    (x3 : Vec Ideal S1x64 .f32) (x4 : Vec Ideal S64x64 .f32) (x5 : Vec Ideal S1x64 .f32)
    (p : Fin 10000) (q : Fin 128) (q' : Fin 64) (hq : q.val = q'.val) :
    k0_pay1 (F := Ideal) x0 x1 x2 x3 x4 x5 (ix2 p q) = x0 (ix2 p q') := by
  unfold k0_pay1
  refine (ConcatPair.cols_left _ _ _ p q' q hq).trans ?_
  rw [shapeCast_self]

/-- What the body stores, read at column `64 + q'`: entry `(p, q')` of the bounding-box branch of the BLOCKS. The
    roundings to the narrow format are the identity over the extended reals, the bias rows are repeated down the rows, the
    clamp's zero word is the number 0. -/
theorem body_right (x0 : Vec Ideal S10000x64 .f32) (x1 : Vec Ideal S10000x4 .f32) (x2 : Vec Ideal S4x64 .f32)
    (x3 : Vec Ideal S1x64 .f32) (x4 : Vec Ideal S64x64 .f32) (x5 : Vec Ideal S1x64 .f32)
    (p : Fin 10000) (q : Fin 128) (q' : Fin 64) (hq : q.val = 64 + q'.val) :
    k0_pay1 (F := Ideal) x0 x1 x2 x3 x4 x5 (ix2 p q) = boxEntry x1 x2 x3 x4 x5 p q' := by
  unfold k0_pay1
  refine (ConcatPair.cols_right _ _ _ p q' q hq).trans ?_
  simp only [shapeCast_self]
  rw [addf_apply, out_block_apply, broadcastTo_1b_ab_apply]
  unfold boxEntry
  refine congrArg (· + x5 (ix2 (0 : Fin 1) q')) (Finset.sum_congr rfl fun k _ => ?_)
  rw [truncf_apply, truncf_apply, maximumf_apply, addf_apply, hidden_block_apply, broadcastTo_1b_ab_apply,
    broadcast_apply]
  show max (∑ l : Fin 4, x1 (ix2 p l) * x2 (ix2 l k) + x3 (ix2 (0 : Fin 1) k)) (Ideal.ofBits .f32 0x00000000#32)
      * x4 (ix2 k q') = _
  rw [Ideal.ofBits_zero_f32]

/-! ## The stage at an index: all 100000 rows -/

section Stage
open Cert.Stages

/-- The stage's first product (all boxes times the first weight) at `(i, c)`: the same sum over the 4 box numbers. -/
theorem hidden_apply (l : FVec Ideal S100000x4 .f32) (r : FVec Ideal S4x64 .f32) (i : Fin 100000) (c : Fin 64) :
    Host.dotGeneral Cert.ReferenceIdeal.dot_S100000x4_S4x64_S100000x64_1_0_0_1_n_n none l r (ix2 i c)
      = ∑ k : Fin 4, l (ix2 i k) * r (ix2 k c) :=
  RowOps.dotGeneral_plain_apply Cert.ReferenceIdeal.dot_S100000x4_S4x64_S100000x64_1_0_0_1_n_n ⟨_, rfl⟩ none .single l r i c

/-- The stage's second product at `(i, c)`: the same sum over the 64 hidden units. -/
theorem out_apply (l : FVec Ideal S100000x64 .f32) (r : FVec Ideal S64x64 .f32) (i : Fin 100000) (c : Fin 64) :
    Host.dotGeneral Cert.ReferenceIdeal.dot_S100000x64_S64x64_S100000x64_1_0_0_1_n_n none l r (ix2 i c)
      = ∑ k : Fin 64, l (ix2 i k) * r (ix2 k c) :=
  RowOps.dotGeneral_plain_apply Cert.ReferenceIdeal.dot_S100000x64_S64x64_S100000x64_1_0_0_1_n_n ⟨_, rfl⟩ none .single l r i c

/-- A bias row repeated down the 100000 rows reads, at `(r, q)`, the row at `(0, q)`. -/
theorem rows64_apply (b : FVec Ideal S1x64 .f32) (r : Fin 100000) (q : Fin 64) :
    rows64 b (ix2 r q) = b (ix2 (0 : Fin 1) q) := by
  refine broadcastInDim_apply _ _ b (ix2 r q) (ix2 (0 : Fin 1) q) fun a => ?_
  match a with
  | ⟨0, _⟩ => rfl
  | ⟨1, _⟩ => rfl

/-- The stage read in the first 64 columns: the embedding. -/
theorem features_left (emb : FVec Ideal S100000x64 .f32) (bbox : FVec Ideal S100000x4 .f32) (w1 : FVec Ideal S4x64 .f32)
    (b1 : FVec Ideal S1x64 .f32) (w2 : FVec Ideal S64x64 .f32) (b2 : FVec Ideal S1x64 .f32)
    (r : Fin 100000) (q : Fin 128) (q' : Fin 64) (hq : q.val = q'.val) :
    features emb bbox w1 b1 w2 b2 (ix2 r q) = emb (ix2 r q') := by
  unfold features
  exact ConcatPair.cols_left _ _ _ r q' q hq

/-- The stage read at column `64 + q'`: entry `(r, q')` of the bounding-box branch of the whole arrays. -/
theorem features_right (emb : FVec Ideal S100000x64 .f32) (bbox : FVec Ideal S100000x4 .f32) (w1 : FVec Ideal S4x64 .f32)
    (b1 : FVec Ideal S1x64 .f32) (w2 : FVec Ideal S64x64 .f32) (b2 : FVec Ideal S1x64 .f32)
    (r : Fin 100000) (q : Fin 128) (q' : Fin 64) (hq : q.val = 64 + q'.val) :
    features emb bbox w1 b1 w2 b2 (ix2 r q) = boxEntry bbox w1 b1 w2 b2 r q' := by
  unfold features
  refine (ConcatPair.cols_right _ _ _ r q' q hq).trans ?_
  unfold boxBranch
  rw [addf_apply, out_apply, rows64_apply]
  unfold boxEntry
  refine congrArg (· + b2 (ix2 (0 : Fin 1) q')) (Finset.sum_congr rfl fun k _ => ?_)
  rw [maximumf_apply, addf_apply, hidden_apply, rows64_apply, RowOps.broadcastInDim_scalar_apply, constant_apply,
    Ideal.ofBits_zero_f32]

end Stage

/-! ## The blocks -/

/-- Zero offsets, as the body's accesses spell them. -/
theorem zero_offsets : (![0, 0] : Fin 2 → Nat) = fun _ => 0 := funext fun a => by fin_cases a <;> rfl

/-- The block indices, decided over the ten grid points: the embedding's, the boxes' and the output's block at point `t`
    is block `t` along the rows and block 0 along the columns; the weights' and the bias rows' is block 0 on both axes
    (their one block is the whole array, at every point). -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

section Region
variable (V : (c : Dev nD) → (b : Ref sig .tc) → Buf (Elt Ideal) ((c : Thread nD τ).loc b)) (c : Dev nD)

/-- Row `p` of the embedding's block at point `t` is row `10000·t + p` of the embedding (a block's coordinate is the
    block index times the block's extent plus the coordinate inside the block). -/
theorem emb_block (t : Fin cfg0.N) (p : Fin 10000) (q : Fin 64) (r : Fin 100000) (hr : r.val = 10000 * t.val + p.val) :
    (iblk0 V c 0 t : Vec Ideal S10000x64 .f32) (ix2 p q) = (V c main_v6 : S100000x64.Idx → EReal) (ix2 r q) := by
  obtain ⟨e0, e1, -⟩ := block_index t
  show V c main_v6 (((cfg0.win 0).blk t).view.emb (ix2 p q)) = _
  refine congrArg _ (funext fun a => Fin.ext ?_)
  match a with
  | ⟨0, _⟩ => show win0_0.index t (0 : Fin 2) * 10000 + 1 * p.val = r.val; rw [e0, hr]; omega
  | ⟨1, _⟩ => show win0_0.index t (1 : Fin 2) * 64 + 1 * q.val = q.val; rw [e1]; omega

/-- Row `p` of the boxes' block at point `t` is row `10000·t + p` of the boxes. -/
theorem bbox_block (t : Fin cfg0.N) (p : Fin 10000) (l : Fin 4) (r : Fin 100000) (hr : r.val = 10000 * t.val + p.val) :
    (iblk0 V c 1 t : Vec Ideal S10000x4 .f32) (ix2 p l) = (V c main_arg1 : S100000x4.Idx → EReal) (ix2 r l) := by
  obtain ⟨-, -, e0, e1, -⟩ := block_index t
  show V c main_arg1 (((cfg0.win 1).blk t).view.emb (ix2 p l)) = _
  refine congrArg _ (funext fun a => Fin.ext ?_)
  match a with
  | ⟨0, _⟩ => show win0_1.index t (0 : Fin 2) * 10000 + 1 * p.val = r.val; rw [e0, hr]; omega
  | ⟨1, _⟩ => show win0_1.index t (1 : Fin 2) * 4 + 1 * l.val = l.val; rw [e1]; omega

/-- The first weight's block, at every point, is the first weight. -/
theorem w1_block (t : Fin cfg0.N) : (iblk0 V c 2 t : Vec Ideal S4x64 .f32) = (V c main_arg4 : S4x64.Idx → EReal) := by
  obtain ⟨-, -, -, -, e0, e1, -⟩ := block_index t
  funext j
  show V c main_arg4 (((cfg0.win 2).blk t).view.emb j) = V c main_arg4 j
  refine congrArg _ (funext fun a => Fin.ext ?_)
  match a with
  | ⟨0, _⟩ => show win0_2.index t (0 : Fin 2) * 4 + 1 * (j 0).val = (j 0).val; rw [e0]; omega
  | ⟨1, _⟩ => show win0_2.index t (1 : Fin 2) * 64 + 1 * (j 1).val = (j 1).val; rw [e1]; omega

/-- The first bias row's block, at every point, is the first bias row. -/
theorem b1_block (t : Fin cfg0.N) : (iblk0 V c 3 t : Vec Ideal S1x64 .f32) = (V c main_v7 : S1x64.Idx → EReal) := by
  obtain ⟨-, -, -, -, -, -, e0, e1, -⟩ := block_index t
  funext j
  show V c main_v7 (((cfg0.win 3).blk t).view.emb j) = V c main_v7 j
  refine congrArg _ (funext fun a => Fin.ext ?_)
  match a with
  | ⟨0, _⟩ => show win0_3.index t (0 : Fin 2) * 1 + 1 * (j 0).val = (j 0).val; rw [e0]; omega
  | ⟨1, _⟩ => show win0_3.index t (1 : Fin 2) * 64 + 1 * (j 1).val = (j 1).val; rw [e1]; omega

/-- The second weight's block, at every point, is the second weight. -/
theorem w2_block (t : Fin cfg0.N) : (iblk0 V c 4 t : Vec Ideal S64x64 .f32) = (V c main_arg6 : S64x64.Idx → EReal) := by
  obtain ⟨-, -, -, -, -, -, -, -, e0, e1, -⟩ := block_index t
  funext j
  show V c main_arg6 (((cfg0.win 4).blk t).view.emb j) = V c main_arg6 j
  refine congrArg _ (funext fun a => Fin.ext ?_)
  match a with
  | ⟨0, _⟩ => show win0_4.index t (0 : Fin 2) * 64 + 1 * (j 0).val = (j 0).val; rw [e0]; omega
  | ⟨1, _⟩ => show win0_4.index t (1 : Fin 2) * 64 + 1 * (j 1).val = (j 1).val; rw [e1]; omega

/-- The second bias row's block, at every point, is the second bias row. -/
theorem b2_block (t : Fin cfg0.N) : (iblk0 V c 5 t : Vec Ideal S1x64 .f32) = (V c main_v8 : S1x64.Idx → EReal) := by
  obtain ⟨-, -, -, -, -, -, -, -, -, -, e0, e1, -⟩ := block_index t
  funext j
  show V c main_v8 (((cfg0.win 5).blk t).view.emb j) = V c main_v8 j
  refine congrArg _ (funext fun a => Fin.ext ?_)
  match a with
  | ⟨0, _⟩ => show win0_5.index t (0 : Fin 2) * 1 + 1 * (j 0).val = (j 0).val; rw [e0]; omega
  | ⟨1, _⟩ => show win0_5.index t (1 : Fin 2) * 64 + 1 * (j 1).val = (j 1).val; rw [e1]; omega

/-- Entry `(p, q)` of the output's block at point `t` sits in the output at `(10000·t + p, q)`. -/
theorem out_block_emb (t : Fin cfg0.N) (p : Fin 10000) (q : Fin 128) (r : Fin 100000) (hr : r.val = 10000 * t.val + p.val) :
    ((cfg0.win 6).blk t).view.emb (ix2 p q) = (ix2 r q : S100000x128.Idx) := by
  obtain ⟨-, -, -, -, -, -, -, -, -, -, -, -, e0, e1⟩ := block_index t
  refine funext fun a => Fin.ext ?_
  match a with
  | ⟨0, _⟩ => show win0_6.index t (0 : Fin 2) * 10000 + 1 * p.val = r.val; rw [e0, hr]; omega
  | ⟨1, _⟩ => show win0_6.index t (1 : Fin 2) * 128 + 1 * q.val = q.val; rw [e1]; omega

/-! ## What a point writes back -/

/-- WHAT POINT `t` WRITES BACK is block `t` of the stage of the six arrays as the region finds them: in the first 64
    columns both are the embedding's rows `10000·t + p`; at column `64 + q'` both are the bounding-box entry, the body's
    from the boxes' block (whose row `p` is the boxes' row `10000·t + p`) and the whole weights and bias rows. -/
theorem flushed_features (t : Fin cfg0.N) :
    (dat0 (F := Ideal) V c).flushed 6 t = ((cfg0.win 6).blk t).view.read (Elt Ideal)
      (Cert.Stages.features (V c main_v6) (V c main_arg1) (V c main_arg4) (V c main_v7) (V c main_arg6) (V c main_v8)) := by
  show (cfg0.win 6).cut (grid0.coords t) ((dat0 V c).after 6 t) = _
  rw [after0_6]
  unfold out0_6
  rw [View.canon_unit_zero zero_offsets]
  simp only [View.ld_unit_zero (S := S10000x64) zero_offsets, View.ld_unit_zero (S := S10000x4) zero_offsets,
    View.ld_unit_zero (S := S4x64) zero_offsets, View.ld_unit_zero (S := S1x64) zero_offsets,
    View.ld_unit_zero (S := S64x64) zero_offsets]
  funext j
  obtain ⟨p, q, rfl⟩ : ∃ (p : Fin 10000) (q : Fin 128), j = ix2 p q := ⟨j 0, j 1, eq_ix2 j⟩
  have hN : cfg0.N = 10 := N_0
  have ht : t.val < 10 := hN ▸ t.isLt
  obtain ⟨r, hr⟩ : ∃ r : Fin 100000, r.val = 10000 * t.val + p.val :=
    ⟨⟨10000 * t.val + p.val, by have := p.isLt; omega⟩, rfl⟩
  show k0_pay1 (iblk0 V c 0 t) (iblk0 V c 1 t) (iblk0 V c 2 t) (iblk0 V c 3 t) (iblk0 V c 4 t) (iblk0 V c 5 t) (ix2 p q)
    = Cert.Stages.features (V c main_v6) (V c main_arg1) (V c main_arg4) (V c main_v7) (V c main_arg6) (V c main_v8)
        (((cfg0.win 6).blk t).view.emb (ix2 p q))
  rw [out_block_emb t p q r hr]
  by_cases hq : q.val < 64
  · obtain ⟨q', hq'⟩ : ∃ q' : Fin 64, q.val = q'.val := ⟨⟨q.val, hq⟩, rfl⟩
    refine (body_left (iblk0 V c 0 t) (iblk0 V c 1 t) (iblk0 V c 2 t) (iblk0 V c 3 t) (iblk0 V c 4 t) (iblk0 V c 5 t)
      p q q' hq').trans ?_
    refine (emb_block V c t p q' r hr).trans ?_
    exact (features_left (V c main_v6) (V c main_arg1) (V c main_arg4) (V c main_v7) (V c main_arg6) (V c main_v8)
      r q q' hq').symm
  · obtain ⟨q', hq'⟩ : ∃ q' : Fin 64, q.val = 64 + q'.val :=
      ⟨⟨q.val - 64, by have := q.isLt; omega⟩, by show q.val = 64 + (q.val - 64); omega⟩
    refine (body_right (iblk0 V c 0 t) (iblk0 V c 1 t) (iblk0 V c 2 t) (iblk0 V c 3 t) (iblk0 V c 4 t) (iblk0 V c 5 t)
      p q q' hq').trans ?_
    refine (boxEntry_congr (A := 10000) (B := 100000)
      (iblk0 V c 1 t : Vec Ideal S10000x4 .f32) (V c main_arg1 : S100000x4.Idx → EReal)
      (iblk0 V c 2 t : Vec Ideal S4x64 .f32) (V c main_arg4 : S4x64.Idx → EReal)
      (iblk0 V c 3 t : Vec Ideal S1x64 .f32) (V c main_v7 : S1x64.Idx → EReal)
      (iblk0 V c 4 t : Vec Ideal S64x64 .f32) (V c main_arg6 : S64x64.Idx → EReal)
      (iblk0 V c 5 t : Vec Ideal S1x64 .f32) (V c main_v8 : S1x64.Idx → EReal)
      p r q' (fun l => bbox_block V c t p l r hr) (w1_block V c t) (b1_block V c t) (w2_block V c t)
      (b2_block V c t)).trans ?_
    exact (features_right (V c main_v6) (V c main_arg1) (V c main_arg4) (V c main_v7) (V c main_arg6) (V c main_v8)
      r q q' hq').symm

/-! ## The blocks tile the output -/

/-- An index of the output is in point `t`'s block iff each coordinate is in the block's range on its axis. -/
theorem mem_block (t : Fin cfg0.N) (i : S100000x128.Idx) :
    i ∈ ((cfg0.win 6).blk t).view.set ↔ ∀ a : Fin 2, win0_6.index t a * S10000x128.size a ≤ (i a).val
      ∧ (i a).val < win0_6.index t a * S10000x128.size a + S10000x128.size a := by
  show i ∈ ((View.whole main_v9).slice (win0_6.rect t)).set ↔ _
  rw [View.set_slice_whole, Rect.mem_set_unit]
  exact Iff.rfl

/-- Every index of the output is in a block that is written back: row `r` lies in the block of point `r / 10000`,
    whose columns are all 128. -/
theorem covered (i : S100000x128.Idx) :
    ∃ t : Fin cfg0.N, (cfg0.win 6).flush t = true ∧ i ∈ ((cfg0.win 6).blk t).view.set := by
  have hi0 : (i 0).val < 100000 := (i 0).isLt
  have hi1 : (i 1).val < 128 := (i 1).isLt
  have hN : cfg0.N = 10 := N_0
  obtain ⟨t, ht⟩ : ∃ t : Fin cfg0.N, t.val = (i 0).val / 10000 := ⟨⟨(i 0).val / 10000, by rw [hN]; omega⟩, rfl⟩
  obtain ⟨-, -, -, -, -, -, -, -, -, -, -, -, e0, e1⟩ := block_index t
  refine ⟨t, flush0_6 t, ?_⟩
  rw [mem_block]
  intro a
  match a with
  | ⟨0, _⟩ =>
    show win0_6.index t (0 : Fin 2) * 10000 ≤ (i 0).val ∧ (i 0).val < win0_6.index t (0 : Fin 2) * 10000 + 10000
    rw [e0, ht]; omega
  | ⟨1, _⟩ =>
    show win0_6.index t (1 : Fin 2) * 128 ≤ (i 1).val ∧ (i 1).val < win0_6.index t (1 : Fin 2) * 128 + 128
    rw [e1]; omega

/-! ## The array the region leaves -/

/-- THE OUTPUT ARRAY after the region's ten points, for any entry contents `V`: the node features of the six arrays the
    region reads, as it finds them. -/
theorem features_array :
    (dat0 (F := Ideal) V c).arrAt 6 cfg0.N
      = Cert.Stages.features (V c main_v6) (V c main_arg1) (V c main_arg4) (V c main_v7) (V c main_arg6) (V c main_v8) :=
  (dat0 V c).arrAt_eq_of_cover 6 _ (fun t _ => flushed_features V c t) covered

end Region

end Cert.KernelIdeal.FeatureRegion

end
-- ==== Proof.LinearRegions.lean ====
/-
  The three dense ("linear") regions of the network, each read as ONE function of whole arrays.

  A region of this kind runs over a grid of 10 points. Its activations `[100000, 128]` and its output `[100000, 128]`
  are cut into row blocks: the block of point `t` is rows `10000·t … 10000·t + 9999`, all 128 columns. Its bias row
  `[1, 128]` and its weight `[128, 128]` are "resident": their block at every point is the whole array. At a point the
  body reads the three blocks `x`, `b`, `w` and leaves in the output's block

    region 1:      (x + b) · w            (the bias row repeated down the rows, then the product);
    regions 2, 3:  max (x + b) 0 · w      (the same, clamped at zero before the product).

  Over the extended reals every format change is the identity, so entry `(p, q)` of that block is the plain sum
  `∑ k, f (x (p, k) + b (0, k)) * w (k, q)` (`f` the identity or the clamp): it depends on row `p` of the block only.
  Row `p` of block `t` of the activations is row `r = 10000·t + p` of the whole array, and entry `(p, q)` of the
  output's block `t` is written back to entry `(r, q)` of the output array. Hence block `t` of the product of the whole
  arrays is the product of block `t`: what point `t` writes back is block `t` of the ONE array function
  `i ↦ ∑ k, f (agg (i₀, k) + b (0, k)) * w (k, i₁)`. The ten blocks tile the 100000 rows (row `r` lies in the block of
  point `r / 10000`), so after the region the output array is that function everywhere — and that function is, entry by
  entry, the host's `relu (agg + b) · w` (the same sum in the same order). In region 1 the bias row is all zeros and
  `x + 0 = x` on every extended real, so its output is the plain product `x · w`.
-/
import proofs.«124355_j64132451664402_2_alg».proof.Proof.Gen.KernelIdeal.Frame
import proofs.«124355_j64132451664402_2_alg».proof.Proof.Stages
import proofs.«124355_j64132451664402_2_alg».proof.Proof.LibRowOps
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open Idealize.ShloMosaic Idealize.ShloMosaic.TcCoe Idealize.ShloMosaic.ValueIdx Idealize.SL.Sem
open Idealize.ShloMosaic.Pipeline (Dat Cfg Window)
open Cert.KernelIdeal Cert.KernelIdeal.Gen
open scoped BigOperators

namespace Cert.KernelIdeal.LinearRegions

/-- The origin of a rank-2 rectangle, as the constant function. -/
theorem origin_zero : (![0, 0] : Fin 2 → Nat) = fun _ => 0 := funext fun a => by fin_cases a <;> rfl

/-- The extended real the float word `0x00000000` encodes (it is `0`: `Ideal.ofBits_zero_f32`). -/
abbrev zeroLit : EReal := Ideal.ofBits .f32 0x00000000#32

/-! ## The array functions the regions compute -/

/-- `relu (agg + b) · w` entry by entry: at `(r, q)` the sum over `k` of `max (agg (r, k) + b (0, k)) 0 * w (k, q)`. -/
def reluDense (agg : S100000x128.Idx → EReal) (b : S1x128.Idx → EReal) (w : S128x128.Idx → EReal) : S100000x128.Idx → EReal :=
  fun i => ∑ k : Fin 128, max (agg (ix2 (i 0) k) + b (ix2 (0 : Fin 1) k)) zeroLit * w (ix2 k (i 1))

/-- `(x + b) · w` entry by entry: at `(r, q)` the sum over `k` of `(x (r, k) + b (0, k)) * w (k, q)`. -/
def biasDense (x : S100000x128.Idx → EReal) (b : S1x128.Idx → EReal) (w : S128x128.Idx → EReal) : S100000x128.Idx → EReal :=
  fun i => ∑ k : Fin 128, (x (ix2 (i 0) k) + b (ix2 (0 : Fin 1) k)) * w (ix2 k (i 1))

/-! ## A body's payload at an entry of its block

  Entry `(p, q)` of what a body stores depends on row `p` of the activations' block, on the bias row and on column `q`
  of the weight: the format changes are the identity, the bias row is repeated down the rows, the product into the zero
  accumulator is the plain contraction sum. -/

set_option maxHeartbeats 400000 in
/-- Region 2's payload at `(p, q)`: `∑ k, max (x (p, k) + b (0, k)) 0 * w (k, q)`. -/
theorem relu_payload2 (x : Vec Ideal S10000x128 .f32) (b : Vec Ideal S1x128 .f32) (w : Vec Ideal S128x128 .f32)
    (p : Fin 10000) (q : Fin 128) :
    k2_pay1 (F := Ideal) x b w (ix2 p q)
      = ∑ k : Fin 128, max (x (ix2 p k) + b (ix2 (0 : Fin 1) k)) zeroLit * w (ix2 k q) := by
  unfold k2_pay1
  rw [truncf_apply]
  refine (RowOps.matmul_zero_plain_apply dot_S10000x128_S128x128_S10000x128_1_0_0_1_n_n ⟨_, rfl⟩ none _ _ p q).trans ?_
  refine Finset.sum_congr rfl fun k _ => ?_
  rw [truncf_apply, truncf_apply, maximumf_apply, addf_apply, broadcast_apply, shapeCast_self, shapeCast_self, broadcastTo_1b_ab_apply]
  rfl

set_option maxHeartbeats 400000 in
/-- Region 3's payload at `(p, q)`: the same sum. -/
theorem relu_payload3 (x : Vec Ideal S10000x128 .f32) (b : Vec Ideal S1x128 .f32) (w : Vec Ideal S128x128 .f32)
    (p : Fin 10000) (q : Fin 128) :
    k3_pay1 (F := Ideal) x b w (ix2 p q)
      = ∑ k : Fin 128, max (x (ix2 p k) + b (ix2 (0 : Fin 1) k)) zeroLit * w (ix2 k q) := by
  unfold k3_pay1
  rw [truncf_apply]
  refine (RowOps.matmul_zero_plain_apply dot_S10000x128_S128x128_S10000x128_1_0_0_1_n_n ⟨_, rfl⟩ none _ _ p q).trans ?_
  refine Finset.sum_congr rfl fun k _ => ?_
  rw [truncf_apply, truncf_apply, maximumf_apply, addf_apply, broadcast_apply, shapeCast_self, shapeCast_self, broadcastTo_1b_ab_apply]
  rfl

set_option maxHeartbeats 400000 in
/-- Region 1's payload at `(p, q)`: `∑ k, (x (p, k) + b (0, k)) * w (k, q)` (no clamp). -/
theorem bias_payload1 (x : Vec Ideal S10000x128 .f32) (b : Vec Ideal S1x128 .f32) (w : Vec Ideal S128x128 .f32)
    (p : Fin 10000) (q : Fin 128) :
    k1_pay1 (F := Ideal) x b w (ix2 p q)
      = ∑ k : Fin 128, (x (ix2 p k) + b (ix2 (0 : Fin 1) k)) * w (ix2 k q) := by
  unfold k1_pay1
  rw [truncf_apply]
  refine (RowOps.matmul_zero_plain_apply dot_S10000x128_S128x128_S10000x128_1_0_0_1_n_n ⟨_, rfl⟩ none _ _ p q).trans ?_
  refine Finset.sum_congr rfl fun k _ => ?_
  rw [truncf_apply, truncf_apply, addf_apply, shapeCast_self, shapeCast_self, broadcastTo_1b_ab_apply]

/-! ## The host's stages at an entry -/

/-- A bias row repeated down the 100000 rows reads, at `(r, k)`, the row at `k`. -/
theorem rows128_apply (b : FVec Ideal S1x128 .f32) (r : Fin 100000) (k : Fin 128) :
    Cert.Stages.rows128 b (ix2 r k) = b (ix2 (0 : Fin 1) k) :=
  broadcastInDim_apply ![0, 1] _ b (ix2 r k) (ix2 (0 : Fin 1) k) (fun a => by
    match a with
    | ⟨0, _⟩ => rfl
    | ⟨1, _⟩ => rfl)

set_option maxHeartbeats 400000 in
/-- The plain product at `(r, q)`: `∑ k, x (r, k) * w (k, q)`. -/
theorem project_apply (x : FVec Ideal S100000x128 .f32) (w : FVec Ideal S128x128 .f32) (r : Fin 100000) (q : Fin 128) :
    Cert.Stages.project x w (ix2 r q) = ∑ k : Fin 128, x (ix2 r k) * w (ix2 k q) := by
  unfold Cert.Stages.project Host.dotGeneral
  exact RowOps.dotGeneral_plain_apply Cert.ReferenceIdeal.dot_S100000x128_S128x128_S100000x128_1_0_0_1_n_n ⟨_, rfl⟩ none _ x w r q

set_option maxHeartbeats 400000 in
/-- A hidden layer's dense part at `(r, q)`: `∑ k, max (agg (r, k) + b (0, k)) 0 * w (k, q)`. -/
theorem layer_apply (agg : FVec Ideal S100000x128 .f32) (b : FVec Ideal S1x128 .f32) (w : FVec Ideal S128x128 .f32)
    (r : Fin 100000) (q : Fin 128) :
    Cert.Stages.layer agg b w (ix2 r q)
      = ∑ k : Fin 128, max (agg (ix2 r k) + b (ix2 (0 : Fin 1) k)) zeroLit * w (ix2 k q) := by
  unfold Cert.Stages.layer
  refine (project_apply _ w r q).trans ?_
  refine Finset.sum_congr rfl fun k _ => ?_
  rw [maximumf_apply, addf_apply, RowOps.broadcastInDim_scalar_apply, constant_apply, rows128_apply]

/-- The array function `reluDense` is the host's layer. -/
theorem reluDense_eq_layer (agg : FVec Ideal S100000x128 .f32) (b : FVec Ideal S1x128 .f32) (w : FVec Ideal S128x128 .f32) :
    reluDense agg b w = Cert.Stages.layer agg b w :=
  funext fun i => by
    obtain ⟨r, q, rfl⟩ : ∃ (r : Fin 100000) (q : Fin 128), i = ix2 r q := ⟨i 0, i 1, eq_ix2 i⟩
    exact (layer_apply agg b w r q).symm

/-- With an all-zero bias row the array function `biasDense` is the host's plain product: `x + 0 = x` on every
    extended real. -/
theorem biasDense_zero_eq_project (x : FVec Ideal S100000x128 .f32) (b : FVec Ideal S1x128 .f32) (w : FVec Ideal S128x128 .f32)
    (hb : ∀ k : Fin 128, b (ix2 (0 : Fin 1) k) = 0) :
    biasDense x b w = Cert.Stages.project x w :=
  funext fun i => by
    obtain ⟨r, q, rfl⟩ : ∃ (r : Fin 100000) (q : Fin 128), i = ix2 r q := ⟨i 0, i 1, eq_ix2 i⟩
    refine Eq.trans ?_ (project_apply x w r q).symm
    refine Finset.sum_congr rfl fun k _ => ?_
    show (x (ix2 r k) + b (ix2 (0 : Fin 1) k)) * w (ix2 k q) = x (ix2 r k) * w (ix2 k q)
    rw [hb k, add_zero]

variable (V : (c : Dev nD) → (b : Ref sig .tc) → Buf (Elt Ideal) ((c : Thread nD τ).loc b))

/-! ## Region 2: `cc2__linear_kernel`, the first hidden layer's dense part -/

/-- The printed index maps of region 2, decided once over its grid: at point `t` the activations' and the output's
    blocks are row block `t` (column block 0), the bias row's and the weight's block is the whole array. -/
theorem blockIdx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Every one of the ten row blocks of the output is some point's. -/
theorem rows_onto2 : ∀ q0 : Fin 10, ∃ t : Fin cfg2.N, win2_3.index t = ![q0.val, 0] :=
  (by decide +kernel : ∀ q0 : Fin 10, ∃ t : Fin grid2.N, win2_3.index t = ![q0.val, 0])

/-- An entry of the output array is in point `t`'s block iff each coordinate is in the block's range on its axis. -/
theorem mem_block2 (t : Fin cfg2.N) (i : S100000x128.Idx) :
    i ∈ ((cfg2.win 3).blk t).view.set ↔ ∀ a : Fin 2, win2_3.index t a * S10000x128.size a ≤ (i a).val ∧ (i a).val < win2_3.index t a * S10000x128.size a + S10000x128.size a := by
  show i ∈ ((View.whole main_v57).slice (win2_3.rect t)).set ↔ _
  rw [View.set_slice_whole, Rect.mem_set_unit]
  exact Iff.rfl

/-- The blocks tile the output array: entry `(r, q)` lies in the block of point `r / 10000`, which is written back. -/
theorem cover2 (i : S100000x128.Idx) : ∃ t : Fin cfg2.N, (cfg2.win 3).flush t = true ∧ i ∈ ((cfg2.win 3).blk t).view.set := by
  have hi0 : (i 0).val < 100000 := (i 0).isLt
  have hi1 : (i 1).val < 128 := (i 1).isLt
  obtain ⟨t, ht⟩ := rows_onto2 ⟨(i 0).val / 10000, by omega⟩
  have q0 : win2_3.index t (0 : Fin 2) = (i 0).val / 10000 := congrFun ht 0
  have q1 : win2_3.index t (1 : Fin 2) = 0 := congrFun ht 1
  refine ⟨t, flush2_3 t, ?_⟩
  rw [mem_block2]
  intro a
  match a with
  | ⟨0, _⟩ => show win2_3.index t (0 : Fin 2) * 10000 ≤ (i 0).val ∧ (i 0).val < win2_3.index t (0 : Fin 2) * 10000 + 10000; omega
  | ⟨1, _⟩ => show win2_3.index t (1 : Fin 2) * 128 ≤ (i 1).val ∧ (i 1).val < win2_3.index t (1 : Fin 2) * 128 + 128; omega

set_option maxHeartbeats 400000 in
/-- What point `t` of region 2 writes back is block `t` of `reluDense` of the arrays as the region finds them: entry
    `(p, q)` of the body's payload reads row `p` of the activations' block `t`, which is row `10000·t + p` of the array, the
    row the output's block `t` puts entry `(p, q)` on; the bias row and the weight are read whole. -/
theorem flushed2 (c : Dev nD) (t : Fin cfg2.N) :
    (dat2 (F := Ideal) V c).flushed 3 t = ((cfg2.win 3).blk t).view.read (Elt Ideal) (reluDense (V c main_v55) (V c main_v56) (V c main_arg10)) := by
  show (cfg2.win 3).cut (grid2.coords t) ((dat2 V c).after 3 t) = _
  rw [after2_3]
  unfold out2_3
  rw [View.canon_unit_zero origin_zero]
  simp only [View.ld_unit_zero (S := S10000x128) origin_zero, View.ld_unit_zero (S := S1x128) origin_zero, View.ld_unit_zero (S := S128x128) origin_zero]
  obtain ⟨e00, e01, e10, e11, e20, e21, e30, e31⟩ := blockIdx2 t
  funext j
  show k2_pay1 (F := Ideal) (iblk2 V c 0 t) (iblk2 V c 1 t) (iblk2 V c 2 t) j
    = reluDense (V c main_v55) (V c main_v56) (V c main_arg10) (((cfg2.win 3).blk t).view.emb j)
  obtain ⟨p, q, rfl⟩ : ∃ (p : Fin 10000) (q : Fin 128), j = ix2 p q := ⟨j 0, j 1, eq_ix2 j⟩
  refine (relu_payload2 _ _ _ p q).trans ?_
  unfold reluDense
  refine Finset.sum_congr rfl fun k _ => ?_
  have hx : iblk2 V c 0 t (ix2 p k) = V c main_v55 (ix2 ((((cfg2.win 3).blk t).view.emb (ix2 p q)) 0) k) := by
    unfold iblk2
    rw [View.read_apply]
    show V c main_v55 _ = V c main_v55 _
    congr 1
    funext a
    apply Fin.ext
    match a with
    | ⟨0, _⟩ => show win2_0.index t (0 : Fin 2) * 10000 + 1 * p.val = win2_3.index t (0 : Fin 2) * 10000 + 1 * p.val; omega
    | ⟨1, _⟩ => show win2_0.index t (1 : Fin 2) * 128 + 1 * k.val = k.val; omega
  have hb : iblk2 V c 1 t (ix2 (0 : Fin 1) k) = V c main_v56 (ix2 (0 : Fin 1) k) := by
    unfold iblk2
    rw [View.read_apply]
    show V c main_v56 _ = V c main_v56 _
    congr 1
    funext a
    apply Fin.ext
    match a with
    | ⟨0, _⟩ => show win2_1.index t (0 : Fin 2) * 1 + 1 * 0 = 0; omega
    | ⟨1, _⟩ => show win2_1.index t (1 : Fin 2) * 128 + 1 * k.val = k.val; omega
  have hw : iblk2 V c 2 t (ix2 k q) = V c main_arg10 (ix2 k ((((cfg2.win 3).blk t).view.emb (ix2 p q)) 1)) := by
    unfold iblk2
    rw [View.read_apply]
    show V c main_arg10 _ = V c main_arg10 _
    congr 1
    funext a
    apply Fin.ext
    match a with
    | ⟨0, _⟩ => show win2_2.index t (0 : Fin 2) * 128 + 1 * k.val = k.val; omega
    | ⟨1, _⟩ => show win2_2.index t (1 : Fin 2) * 128 + 1 * q.val = win2_3.index t (1 : Fin 2) * 128 + 1 * q.val; omega
  rw [hx, hb, hw]

/-- After region 2 its output array is `reluDense` of the arrays it found: every block is written back and the blocks
    tile the array. -/
theorem dense_array2 (c : Dev nD) :
    (dat2 (F := Ideal) V c).arrAt 3 cfg2.N = reluDense (V c main_v55) (V c main_v56) (V c main_arg10) :=
  (dat2 V c).arrAt_eq_of_cover 3 _ (fun t _ => flushed2 V c t) cover2

/-- REGION 2, read: its output array ends holding the host's layer `relu (agg + b) · w` of the three arrays it found. -/
theorem layer_array2 (c : Dev nD) :
    ((dat2 (F := Ideal) V c).arrAt 3 cfg2.N : S100000x128.Idx → EReal) = Cert.Stages.layer (V c main_v55) (V c main_v56) (V c main_arg10) :=
  (dense_array2 V c).trans (reluDense_eq_layer (V c main_v55) (V c main_v56) (V c main_arg10))

/-! ## Region 3: `cc3__linear_kernel`, the second hidden layer's dense part -/

/-- The printed index maps of region 3, decided once over its grid: at point `t` the activations' and the output's
    blocks are row block `t` (column block 0), the bias row's and the weight's block is the whole array. -/
theorem blockIdx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- Every one of the ten row blocks of the output is some point's. -/
theorem rows_onto3 : ∀ q0 : Fin 10, ∃ t : Fin cfg3.N, win3_3.index t = ![q0.val, 0] :=
  (by decide +kernel : ∀ q0 : Fin 10, ∃ t : Fin grid3.N, win3_3.index t = ![q0.val, 0])

/-- An entry of the output array is in point `t`'s block iff each coordinate is in the block's range on its axis. -/
theorem mem_block3 (t : Fin cfg3.N) (i : S100000x128.Idx) :
    i ∈ ((cfg3.win 3).blk t).view.set ↔ ∀ a : Fin 2, win3_3.index t a * S10000x128.size a ≤ (i a).val ∧ (i a).val < win3_3.index t a * S10000x128.size a + S10000x128.size a := by
  show i ∈ ((View.whole main_v72).slice (win3_3.rect t)).set ↔ _
  rw [View.set_slice_whole, Rect.mem_set_unit]
  exact Iff.rfl

/-- The blocks tile the output array: entry `(r, q)` lies in the block of point `r / 10000`, which is written back. -/
theorem cover3 (i : S100000x128.Idx) : ∃ t : Fin cfg3.N, (cfg3.win 3).flush t = true ∧ i ∈ ((cfg3.win 3).blk t).view.set := by
  have hi0 : (i 0).val < 100000 := (i 0).isLt
  have hi1 : (i 1).val < 128 := (i 1).isLt
  obtain ⟨t, ht⟩ := rows_onto3 ⟨(i 0).val / 10000, by omega⟩
  have q0 : win3_3.index t (0 : Fin 2) = (i 0).val / 10000 := congrFun ht 0
  have q1 : win3_3.index t (1 : Fin 2) = 0 := congrFun ht 1
  refine ⟨t, flush3_3 t, ?_⟩
  rw [mem_block3]
  intro a
  match a with
  | ⟨0, _⟩ => show win3_3.index t (0 : Fin 2) * 10000 ≤ (i 0).val ∧ (i 0).val < win3_3.index t (0 : Fin 2) * 10000 + 10000; omega
  | ⟨1, _⟩ => show win3_3.index t (1 : Fin 2) * 128 ≤ (i 1).val ∧ (i 1).val < win3_3.index t (1 : Fin 2) * 128 + 128; omega

set_option maxHeartbeats 400000 in
/-- What point `t` of region 3 writes back is block `t` of `reluDense` of the arrays as the region finds them: entry
    `(p, q)` of the body's payload reads row `p` of the activations' block `t`, which is row `10000·t + p` of the array, the
    row the output's block `t` puts entry `(p, q)` on; the bias row and the weight are read whole. -/
theorem flushed3 (c : Dev nD) (t : Fin cfg3.N) :
    (dat3 (F := Ideal) V c).flushed 3 t = ((cfg3.win 3).blk t).view.read (Elt Ideal) (reluDense (V c main_v70) (V c main_v71) (V c main_arg12)) := by
  show (cfg3.win 3).cut (grid3.coords t) ((dat3 V c).after 3 t) = _
  rw [after3_3]
  unfold out3_3
  rw [View.canon_unit_zero origin_zero]
  simp only [View.ld_unit_zero (S := S10000x128) origin_zero, View.ld_unit_zero (S := S1x128) origin_zero, View.ld_unit_zero (S := S128x128) origin_zero]
  obtain ⟨e00, e01, e10, e11, e20, e21, e30, e31⟩ := blockIdx3 t
  funext j
  show k3_pay1 (F := Ideal) (iblk3 V c 0 t) (iblk3 V c 1 t) (iblk3 V c 2 t) j
    = reluDense (V c main_v70) (V c main_v71) (V c main_arg12) (((cfg3.win 3).blk t).view.emb j)
  obtain ⟨p, q, rfl⟩ : ∃ (p : Fin 10000) (q : Fin 128), j = ix2 p q := ⟨j 0, j 1, eq_ix2 j⟩
  refine (relu_payload3 _ _ _ p q).trans ?_
  unfold reluDense
  refine Finset.sum_congr rfl fun k _ => ?_
  have hx : iblk3 V c 0 t (ix2 p k) = V c main_v70 (ix2 ((((cfg3.win 3).blk t).view.emb (ix2 p q)) 0) k) := by
    unfold iblk3
    rw [View.read_apply]
    show V c main_v70 _ = V c main_v70 _
    congr 1
    funext a
    apply Fin.ext
    match a with
    | ⟨0, _⟩ => show win3_0.index t (0 : Fin 2) * 10000 + 1 * p.val = win3_3.index t (0 : Fin 2) * 10000 + 1 * p.val; omega
    | ⟨1, _⟩ => show win3_0.index t (1 : Fin 2) * 128 + 1 * k.val = k.val; omega
  have hb : iblk3 V c 1 t (ix2 (0 : Fin 1) k) = V c main_v71 (ix2 (0 : Fin 1) k) := by
    unfold iblk3
    rw [View.read_apply]
    show V c main_v71 _ = V c main_v71 _
    congr 1
    funext a
    apply Fin.ext
    match a with
    | ⟨0, _⟩ => show win3_1.index t (0 : Fin 2) * 1 + 1 * 0 = 0; omega
    | ⟨1, _⟩ => show win3_1.index t (1 : Fin 2) * 128 + 1 * k.val = k.val; omega
  have hw : iblk3 V c 2 t (ix2 k q) = V c main_arg12 (ix2 k ((((cfg3.win 3).blk t).view.emb (ix2 p q)) 1)) := by
    unfold iblk3
    rw [View.read_apply]
    show V c main_arg12 _ = V c main_arg12 _
    congr 1
    funext a
    apply Fin.ext
    match a with
    | ⟨0, _⟩ => show win3_2.index t (0 : Fin 2) * 128 + 1 * k.val = k.val; omega
    | ⟨1, _⟩ => show win3_2.index t (1 : Fin 2) * 128 + 1 * q.val = win3_3.index t (1 : Fin 2) * 128 + 1 * q.val; omega
  rw [hx, hb, hw]

/-- After region 3 its output array is `reluDense` of the arrays it found: every block is written back and the blocks
    tile the array. -/
theorem dense_array3 (c : Dev nD) :
    (dat3 (F := Ideal) V c).arrAt 3 cfg3.N = reluDense (V c main_v70) (V c main_v71) (V c main_arg12) :=
  (dat3 V c).arrAt_eq_of_cover 3 _ (fun t _ => flushed3 V c t) cover3

/-- REGION 3, read: its output array ends holding the host's layer `relu (agg + b) · w` of the three arrays it found. -/
theorem layer_array3 (c : Dev nD) :
    ((dat3 (F := Ideal) V c).arrAt 3 cfg3.N : S100000x128.Idx → EReal) = Cert.Stages.layer (V c main_v70) (V c main_v71) (V c main_arg12) :=
  (dense_array3 V c).trans (reluDense_eq_layer (V c main_v70) (V c main_v71) (V c main_arg12))

/-! ## Region 1: `cc1__linear_kernel`, the input projection -/

/-- The printed index maps of region 1, decided once over its grid: at point `t` the activations' and the output's
    blocks are row block `t` (column block 0), the bias row's and the weight's block is the whole array. -/
theorem blockIdx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Every one of the ten row blocks of the output is some point's. -/
theorem rows_onto1 : ∀ q0 : Fin 10, ∃ t : Fin cfg1.N, win1_3.index t = ![q0.val, 0] :=
  (by decide +kernel : ∀ q0 : Fin 10, ∃ t : Fin grid1.N, win1_3.index t = ![q0.val, 0])

/-- An entry of the output array is in point `t`'s block iff each coordinate is in the block's range on its axis. -/
theorem mem_block1 (t : Fin cfg1.N) (i : S100000x128.Idx) :
    i ∈ ((cfg1.win 3).blk t).view.set ↔ ∀ a : Fin 2, win1_3.index t a * S10000x128.size a ≤ (i a).val ∧ (i a).val < win1_3.index t a * S10000x128.size a + S10000x128.size a := by
  show i ∈ ((View.whole main_v42).slice (win1_3.rect t)).set ↔ _
  rw [View.set_slice_whole, Rect.mem_set_unit]
  exact Iff.rfl

/-- The blocks tile the output array: entry `(r, q)` lies in the block of point `r / 10000`, which is written back. -/
theorem cover1 (i : S100000x128.Idx) : ∃ t : Fin cfg1.N, (cfg1.win 3).flush t = true ∧ i ∈ ((cfg1.win 3).blk t).view.set := by
  have hi0 : (i 0).val < 100000 := (i 0).isLt
  have hi1 : (i 1).val < 128 := (i 1).isLt
  obtain ⟨t, ht⟩ := rows_onto1 ⟨(i 0).val / 10000, by omega⟩
  have q0 : win1_3.index t (0 : Fin 2) = (i 0).val / 10000 := congrFun ht 0
  have q1 : win1_3.index t (1 : Fin 2) = 0 := congrFun ht 1
  refine ⟨t, flush1_3 t, ?_⟩
  rw [mem_block1]
  intro a
  match a with
  | ⟨0, _⟩ => show win1_3.index t (0 : Fin 2) * 10000 ≤ (i 0).val ∧ (i 0).val < win1_3.index t (0 : Fin 2) * 10000 + 10000; omega
  | ⟨1, _⟩ => show win1_3.index t (1 : Fin 2) * 128 ≤ (i 1).val ∧ (i 1).val < win1_3.index t (1 : Fin 2) * 128 + 128; omega

set_option maxHeartbeats 400000 in
/-- What point `t` of region 1 writes back is block `t` of `biasDense` of the arrays as the region finds them: entry
    `(p, q)` of the body's payload reads row `p` of the activations' block `t`, which is row `10000·t + p` of the array, the
    row the output's block `t` puts entry `(p, q)` on; the bias row and the weight are read whole. -/
theorem flushed1 (c : Dev nD) (t : Fin cfg1.N) :
    (dat1 (F := Ideal) V c).flushed 3 t = ((cfg1.win 3).blk t).view.read (Elt Ideal) (biasDense (V c main_v9) (V c main_v41) (V c main_arg8)) := by
  show (cfg1.win 3).cut (grid1.coords t) ((dat1 V c).after 3 t) = _
  rw [after1_3]
  unfold out1_3
  rw [View.canon_unit_zero origin_zero]
  simp only [View.ld_unit_zero (S := S10000x128) origin_zero, View.ld_unit_zero (S := S1x128) origin_zero, View.ld_unit_zero (S := S128x128) origin_zero]
  obtain ⟨e00, e01, e10, e11, e20, e21, e30, e31⟩ := blockIdx1 t
  funext j
  show k1_pay1 (F := Ideal) (iblk1 V c 0 t) (iblk1 V c 1 t) (iblk1 V c 2 t) j
    = biasDense (V c main_v9) (V c main_v41) (V c main_arg8) (((cfg1.win 3).blk t).view.emb j)
  obtain ⟨p, q, rfl⟩ : ∃ (p : Fin 10000) (q : Fin 128), j = ix2 p q := ⟨j 0, j 1, eq_ix2 j⟩
  refine (bias_payload1 _ _ _ p q).trans ?_
  unfold biasDense
  refine Finset.sum_congr rfl fun k _ => ?_
  have hx : iblk1 V c 0 t (ix2 p k) = V c main_v9 (ix2 ((((cfg1.win 3).blk t).view.emb (ix2 p q)) 0) k) := by
    unfold iblk1
    rw [View.read_apply]
    show V c main_v9 _ = V c main_v9 _
    congr 1
    funext a
    apply Fin.ext
    match a with
    | ⟨0, _⟩ => show win1_0.index t (0 : Fin 2) * 10000 + 1 * p.val = win1_3.index t (0 : Fin 2) * 10000 + 1 * p.val; omega
    | ⟨1, _⟩ => show win1_0.index t (1 : Fin 2) * 128 + 1 * k.val = k.val; omega
  have hb : iblk1 V c 1 t (ix2 (0 : Fin 1) k) = V c main_v41 (ix2 (0 : Fin 1) k) := by
    unfold iblk1
    rw [View.read_apply]
    show V c main_v41 _ = V c main_v41 _
    congr 1
    funext a
    apply Fin.ext
    match a with
    | ⟨0, _⟩ => show win1_1.index t (0 : Fin 2) * 1 + 1 * 0 = 0; omega
    | ⟨1, _⟩ => show win1_1.index t (1 : Fin 2) * 128 + 1 * k.val = k.val; omega
  have hw : iblk1 V c 2 t (ix2 k q) = V c main_arg8 (ix2 k ((((cfg1.win 3).blk t).view.emb (ix2 p q)) 1)) := by
    unfold iblk1
    rw [View.read_apply]
    show V c main_arg8 _ = V c main_arg8 _
    congr 1
    funext a
    apply Fin.ext
    match a with
    | ⟨0, _⟩ => show win1_2.index t (0 : Fin 2) * 128 + 1 * k.val = k.val; omega
    | ⟨1, _⟩ => show win1_2.index t (1 : Fin 2) * 128 + 1 * q.val = win1_3.index t (1 : Fin 2) * 128 + 1 * q.val; omega
  rw [hx, hb, hw]

/-- After region 1 its output array is `biasDense` of the arrays it found: every block is written back and the blocks
    tile the array. -/
theorem dense_array1 (c : Dev nD) :
    (dat1 (F := Ideal) V c).arrAt 3 cfg1.N = biasDense (V c main_v9) (V c main_v41) (V c main_arg8) :=
  (dat1 V c).arrAt_eq_of_cover 3 _ (fun t _ => flushed1 V c t) cover1

/-- REGION 1, read: when the bias row it finds is the all-zero row (a broadcast of the constant 0), its output array
    ends holding the host's plain product `x · w`. -/
theorem project_array (c : Dev nD)
    (hb : (V c main_v41 : S1x128.Idx → EReal) = broadcastInDim S1x128 ![] bcast_S_S1x128 (constant (F := Ideal) S_ .f32 0x00000000#32)) :
    ((dat1 (F := Ideal) V c).arrAt 3 cfg1.N : S100000x128.Idx → EReal) = Cert.Stages.project (V c main_v9) (V c main_arg8) :=
  (dense_array1 V c).trans (biasDense_zero_eq_project (V c main_v9) (V c main_v41) (V c main_arg8) fun k => by
    rw [hb, RowOps.broadcastInDim_scalar_apply, constant_apply, Ideal.ofBits_zero_f32])

end Cert.KernelIdeal.LinearRegions

end
-- ==== Proof.KernelValue.lean ====
import proofs.«124355_j64132451664402_2_alg».proof.Proof.Boundaries
import proofs.«124355_j64132451664402_2_alg».proof.Proof.HostLines
import proofs.«124355_j64132451664402_2_alg».proof.Proof.FeatureRegion
import proofs.«124355_j64132451664402_2_alg».proof.Proof.LinearRegions

/-!
  The idealized kernel's result is the network of its arguments. Walking the program's boundaries `W1, …, W11` in order:
  each host line leaves the network's named pieces of what it read (the host-lines module), each region leaves its dense
  stage of its input arrays as it found them (the region modules), and whatever a later segment reads of an earlier one's
  results, or of the arguments, is still there (the boundaries module). Composing, the result buffer at `W11` is
  `output` of the fourteen argument arrays.
-/

set_option maxRecDepth 16384

noncomputable section

namespace Cert.KernelIdeal.KernelValue

open Cert.KernelIdeal Cert.KernelIdeal.Gen
open Idealize.ShloMosaic Idealize.ShloMosaic.TcCoe Idealize.SL.Sem
open Cert.Network Cert.Stages

variable (m : (ℓ : Loc nD τ sig) → Buf (Elt Ideal) ℓ) (ρ : Dev nD → PrngReg) (c : Dev nD)

/-! ## Through the feature region -/

/-- The feature region's output array: the node features of the arguments. -/
theorem features_at2 : W2 m ρ c (Proc.devRef .tc main_v9)
    = nodeFeatures (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) := by
  have e6 : V1 m ρ c main_v6 = embed (m ((c : Thread nD τ).loc main_arg0)) (m ((c : Thread nD τ).loc main_arg3)) := HostLines.embed_line (W0 m ρ c)
  have e7 : V1 m ρ c main_v7 = row64 (m ((c : Thread nD τ).loc main_arg5)) := HostLines.bias1_line (W0 m ρ c)
  have e8 : V1 m ρ c main_v8 = row64 (m ((c : Thread nD τ).loc main_arg7)) := HostLines.bias2_line (W0 m ρ c)
  have a1 : V1 m ρ c main_arg1 = (m ((c : Thread nD τ).loc main_arg1)) := Boundaries.arg1_at1 m ρ c
  have a4 : V1 m ρ c main_arg4 = (m ((c : Thread nD τ).loc main_arg4)) := Boundaries.arg4_at1 m ρ c
  have a6 : V1 m ρ c main_arg6 = (m ((c : Thread nD τ).loc main_arg6)) := Boundaries.arg6_at1 m ρ c
  refine (W2_arr m ρ c 6).trans ((FeatureRegion.features_array (V1 m ρ) c).trans ?_)
  rw [e6, e7, e8, a1, a4, a6]
  rfl

/-! ## The edge lines -/

theorem src_at5 : W5 m ρ c (Proc.devRef .tc main_v13) = src (m ((c : Thread nD τ).loc main_arg2)) :=
  (HostLines.src_line (W2 m ρ c)).trans (congrArg src (Boundaries.arg2_at2 m ρ c))
theorem dst_at5 : W5 m ρ c (Proc.devRef .tc main_v16) = dst (m ((c : Thread nD τ).loc main_arg2)) :=
  (HostLines.dst_line (W2 m ρ c)).trans (congrArg dst (Boundaries.arg2_at2 m ρ c))
theorem weights_at5 : W5 m ρ c (Proc.devRef .tc main_v40) = normCol (m ((c : Thread nD τ).loc main_arg2)) :=
  (HostLines.weight_line (W2 m ρ c)).trans (congrArg normCol (Boundaries.arg2_at2 m ρ c))

/-! ## Through the three linear regions -/

/-- The first linear region's output: the features times the first square weight (its bias row is all zeros). -/
theorem projected_at6 : (W6 m ρ c (Proc.devRef .tc main_v42) : S100000x128.Idx → EReal)
    = project (nodeFeatures (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7))) (m ((c : Thread nD τ).loc main_arg8)) := by
  have z : (V5 m ρ c main_v41 : S1x128.Idx → EReal) = broadcastInDim S1x128 ![] bcast_S_S1x128 (constant (F := Ideal) S_ .f32 0x00000000#32) :=
    HostLines.zero_row_line (W2 m ρ c)
  have x : V5 m ρ c main_v9 = nodeFeatures (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) :=
    (HostLines.features_kept (W2 m ρ c)).trans (features_at2 m ρ c)
  have w : V5 m ρ c main_arg8 = (m ((c : Thread nD τ).loc main_arg8)) := Boundaries.arg8_at5 m ρ c
  refine (W6_arr m ρ c 3).trans ((LinearRegions.project_array (V5 m ρ) c z).trans ?_)
  rw [x, w]

/-- The first aggregation. -/
theorem agg_at7 : W7 m ρ c (Proc.devRef .tc main_v55)
    = round0 (nodeFeatures (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7))) (m ((c : Thread nD τ).loc main_arg2)) (m ((c : Thread nD τ).loc main_arg8)) := by
  have hs := (Boundaries.keep6 m ρ c Boundaries.ends0).trans (src_at5 m ρ c)
  have hd := (Boundaries.keep6 m ρ c Boundaries.ends1).trans (dst_at5 m ρ c)
  have hn := (Boundaries.keep6 m ρ c Boundaries.weights).trans (weights_at5 m ρ c)
  refine (HostLines.aggregate_line2 (W6 m ρ c)).trans ?_
  rw [hs, hd, hn, projected_at6 m ρ c]
  rfl

/-- The second linear region's output. -/
theorem layer_at8 : (W8 m ρ c (Proc.devRef .tc main_v57) : S100000x128.Idx → EReal)
    = layer (round0 (nodeFeatures (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7))) (m ((c : Thread nD τ).loc main_arg2)) (m ((c : Thread nD τ).loc main_arg8))) (row128 (m ((c : Thread nD τ).loc main_arg9))) (m ((c : Thread nD τ).loc main_arg10)) := by
  have x : V7 m ρ c main_v55 = _ := agg_at7 m ρ c
  have b : V7 m ρ c main_v56 = row128 (m ((c : Thread nD τ).loc main_arg9)) := (HostLines.bias_line2 (W6 m ρ c)).trans (congrArg row128 (Boundaries.arg9_at6 m ρ c))
  have w : V7 m ρ c main_arg10 = (m ((c : Thread nD τ).loc main_arg10)) := Boundaries.arg10_at7 m ρ c
  refine (W8_arr m ρ c 3).trans ((LinearRegions.layer_array2 (V7 m ρ) c).trans ?_)
  rw [x, b, w]

/-- The second aggregation. -/
theorem agg_at9 : W9 m ρ c (Proc.devRef .tc main_v70)
    = round (round0 (nodeFeatures (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7))) (m ((c : Thread nD τ).loc main_arg2)) (m ((c : Thread nD τ).loc main_arg8))) (m ((c : Thread nD τ).loc main_arg2)) (m ((c : Thread nD τ).loc main_arg9)) (m ((c : Thread nD τ).loc main_arg10)) := by
  have hs := (Boundaries.keep8 m ρ c Boundaries.ends0).trans (src_at5 m ρ c)
  have hd := (Boundaries.keep8 m ρ c Boundaries.ends1).trans (dst_at5 m ρ c)
  have hn := (Boundaries.keep8 m ρ c Boundaries.weights).trans (weights_at5 m ρ c)
  refine (HostLines.aggregate_line3 (W8 m ρ c)).trans ?_
  rw [hs, hd, hn, layer_at8 m ρ c]
  rfl

/-- The third linear region's output. -/
theorem layer_at10 : (W10 m ρ c (Proc.devRef .tc main_v72) : S100000x128.Idx → EReal)
    = layer (round (round0 (nodeFeatures (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7))) (m ((c : Thread nD τ).loc main_arg2)) (m ((c : Thread nD τ).loc main_arg8))) (m ((c : Thread nD τ).loc main_arg2)) (m ((c : Thread nD τ).loc main_arg9)) (m ((c : Thread nD τ).loc main_arg10)))
        (row128 (m ((c : Thread nD τ).loc main_arg11))) (m ((c : Thread nD τ).loc main_arg12)) := by
  have x : V9 m ρ c main_v70 = _ := agg_at9 m ρ c
  have b : V9 m ρ c main_v71 = row128 (m ((c : Thread nD τ).loc main_arg11)) := (HostLines.bias_line3 (W8 m ρ c)).trans (congrArg row128 (Boundaries.arg11_at8 m ρ c))
  have w : V9 m ρ c main_arg12 = (m ((c : Thread nD τ).loc main_arg12)) := Boundaries.arg12_at9 m ρ c
  refine (W10_arr m ρ c 3).trans ((LinearRegions.layer_array3 (V9 m ρ) c).trans ?_)
  rw [x, b, w]

/-! ## The result -/

/-- The result buffer at the last boundary is the network of the arguments. -/
theorem result_eq : W11 m ρ c (Proc.devRef .tc main_v88)
    = output (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  have hs := (Boundaries.keep10 m ρ c Boundaries.ends0).trans (src_at5 m ρ c)
  have hd := (Boundaries.keep10 m ρ c Boundaries.ends1).trans (dst_at5 m ρ c)
  have hn := (Boundaries.keep10 m ρ c Boundaries.weights).trans (weights_at5 m ρ c)
  refine (HostLines.output_line (W10 m ρ c)).trans ?_
  rw [hs, hd, hn, layer_at10 m ρ c, Boundaries.arg13_at10 m ρ c]
  rfl

end Cert.KernelIdeal.KernelValue

end
-- ==== Proof.RefValue.lean ====
import proofs.«124355_j64132451664402_2_alg».proof.Proof.RefRun
import proofs.«124355_j64132451664402_2_alg».proof.Proof.Network

/-!
  The reference program's result is the network of its arguments: the run's composed term of the 127 host operations,
  each buffer replaced by what wrote it, is the network module's `output` with its named pieces unfolded — the same
  operations in the same arrangement.
-/

set_option maxRecDepth 16384

noncomputable section

namespace Cert.ReferenceIdeal.RefValue

open Cert.ReferenceIdeal Cert.ReferenceIdeal.Gen
open Idealize.ShloMosaic Idealize.ShloMosaic.TcCoe Idealize.SL.Sem

theorem result_eq (m : (ℓ : Loc nD τ sig) → Buf (Elt Ideal) ℓ) (c : Dev nD) :
    Cert.ReferenceIdeal.RunP.res_main_v99 (F := Ideal) m c
      = Cert.Network.output (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9))
          (m ((c.tc : Thread nD τ).loc main_arg10)) (m ((c.tc : Thread nD τ).loc main_arg11))
          (m ((c.tc : Thread nD τ).loc main_arg12)) (m ((c.tc : Thread nD τ).loc main_arg13)) := by
  unfold Cert.ReferenceIdeal.RunP.res_main_v99
  rfl

end Cert.ReferenceIdeal.RefValue

end
-- ==== Proof.lean ====
/-
  The certificate's proof. The kernel is a three-round graph network over 100 000 nodes and 1 700 000 edges (self loops
  included): the dense stages — the node features `[embedding | relu (bbox · w1 + b1) · w2 + b2]` and, per round, a bias,
  a clamp at zero and a product with a square weight — run as four tiled regions, ten row blocks each; the gathers and
  scatter-adds along the edges run as host operations between them. The reference runs everything as host operations.

  Over the extended reals both programs compute ONE function of the fourteen arguments, `Cert.Network.output`:
  * the reference's run ends at the composed term of its 127 operations, which is that function with its named pieces
    unfolded;
  * the kernel's run ends at the last boundary's contents of a fold through its eleven segments; walking the fold, each
    host line leaves the named pieces of what it read, and each region leaves the dense stage of its input arrays: a row
    block of a product `x · w` is the product of that row block of `x` with `w`, and at these values the roundings to the
    narrow format between the kernel's stages are the identity. The only law used beyond "the same sums in the same
    order" is `x + 0 = x`, for the all-zero bias row the first linear region is handed; it holds for every extended real,
    so the finiteness of the inputs is never opened.
  The three frames are the programs' runs with the results dropped; the idealization rewrote nothing, so `preserves` asks
  nothing.
-/
import proofs.«124355_j64132451664402_2_alg».proof.Defs
import proofs.«124355_j64132451664402_2_alg».proof.Proof.Gen.Kernel
import proofs.«124355_j64132451664402_2_alg».proof.Proof.Gen.Kernel.Frame
import proofs.«124355_j64132451664402_2_alg».proof.Proof.Gen.KernelIdeal
import proofs.«124355_j64132451664402_2_alg».proof.Proof.Gen.KernelIdeal.Frame
import proofs.«124355_j64132451664402_2_alg».proof.Proof.Gen.ReferenceIdeal
import proofs.«124355_j64132451664402_2_alg».proof.Proof.Gen.Pre_finite_inputs
import proofs.«124355_j64132451664402_2_alg».proof.Proof.KernelRun
import proofs.«124355_j64132451664402_2_alg».proof.Proof.KernelValue
import proofs.«124355_j64132451664402_2_alg».proof.Proof.RefRun
import proofs.«124355_j64132451664402_2_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the result dropped. -/
theorem frame_referenceIdeal : Cert.frame_ReferenceIdeal := fun m ρ _ =>
  (θ_run Cert.ReferenceIdeal.defs _ _).mono (fun _ h c => (h c).2) (Cert.ReferenceIdeal.RunP.run (F := Ideal) m ρ)

/-- The idealization rewrote no operation: nothing to state. -/
theorem preserves : Cert.preserves_Kernel_KernelIdeal := trivial

/-- Both runs end with their result at `Cert.Network.output` of arguments that agree. -/
theorem algebraic : Cert.algebraic_KernelIdeal_ReferenceIdeal := by
  intro m ρ m' ρ' _ hagree
  refine ⟨_, (θ_run Cert.KernelIdeal.defs _ _).mono
      (fun _ h c => ⟨(h c).1.trans (Cert.KernelIdeal.KernelValue.result_eq m ρ c), (h c).2⟩)
      (Cert.KernelIdeal.RunValue.run_result (F := Ideal) m ρ), ?_⟩
  refine (θ_run Cert.ReferenceIdeal.defs _ _).mono (fun _ h c => ⟨(h c).1.trans ?_, (h c).2⟩)
    (Cert.ReferenceIdeal.RunP.run (F := Ideal) m' ρ')
  rw [Cert.ReferenceIdeal.RefValue.result_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
